-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x16 : Shape := ⟨2, ![8192, 16]⟩
abbrev S512x256 : Shape := ⟨2, ![512, 256]⟩
abbrev S2x256 : Shape := ⟨2, ![2, 256]⟩
abbrev S256x64 : Shape := ⟨2, ![256, 64]⟩
abbrev S2x64 : Shape := ⟨2, ![2, 64]⟩
abbrev S64x128 : Shape := ⟨2, ![64, 128]⟩
abbrev S16x128 : Shape := ⟨2, ![16, 128]⟩
abbrev S1x128 : Shape := ⟨2, ![1, 128]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x16 : S_.BroadcastsInDim S8192x16 (![] : Fin 0 → Fin S8192x16.rank)
  reducesTo_S8192x16_S_d0_1 : S8192x16.ReducesTo [0, 1] S_
  bcast_S_S512x256 : S_.BroadcastsInDim S512x256 (![] : Fin 0 → Fin S512x256.rank)
  reducesTo_S512x256_S_d0_1 : S512x256.ReducesTo [0, 1] S_
  bcast_S_S2x256 : S_.BroadcastsInDim S2x256 (![] : Fin 0 → Fin S2x256.rank)
  reducesTo_S2x256_S_d0_1 : S2x256.ReducesTo [0, 1] S_
  bcast_S_S256x64 : S_.BroadcastsInDim S256x64 (![] : Fin 0 → Fin S256x64.rank)
  reducesTo_S256x64_S_d0_1 : S256x64.ReducesTo [0, 1] S_
  bcast_S_S2x64 : S_.BroadcastsInDim S2x64 (![] : Fin 0 → Fin S2x64.rank)
  reducesTo_S2x64_S_d0_1 : S2x64.ReducesTo [0, 1] S_
  bcast_S_S64x128 : S_.BroadcastsInDim S64x128 (![] : Fin 0 → Fin S64x128.rank)
  reducesTo_S64x128_S_d0_1 : S64x128.ReducesTo [0, 1] S_
  bcast_S_S16x128 : S_.BroadcastsInDim S16x128 (![] : Fin 0 → Fin S16x128.rank)
  reducesTo_S16x128_S_d0_1 : S16x128.ReducesTo [0, 1] S_
  bcast_S_S1x128 : S_.BroadcastsInDim S1x128 (![] : Fin 0 → Fin S1x128.rank)
  reducesTo_S1x128_S_d0_1 : S1x128.ReducesTo [0, 1] S_

variable [Facts]

def fn_part2 {F : FTy → Type} [FloatOps F] (main_arg7 : FVec F S16x128 .f32) (main_arg8 : FVec F S1x128 .f32) (main_v33 : IVec S_ 1) : IVec S_ 1 :=
  let main_v34 : FVec F S16x128 .f32 := Host.absf main_arg7
  let main_cst_12 : FVec F S_ .f32 := constant S_ .f32 0x7F800000#32
  let main_v35 : FVec F S16x128 .f32 := broadcastInDim S16x128 ![] bcast_S_S16x128 main_cst_12
  let main_v36 : IVec S16x128 1 := cmpf .olt main_v34 main_v35
  let main_c_13 : IVec S_ 1 := constantI S_ 1 1#1
  let main_v37 : IVec S_ 1 := (fun x v => Host.reduce IntOp.andi x v reducesTo_S16x128_S_d0_1 h_S_) main_v36 main_c_13
  let main_v38 : IVec S_ 1 := andi main_v33 main_v37
  let main_v39 : FVec F S1x128 .f32 := Host.absf main_arg8
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  main_v43

def fn_part1 {F : FTy → Type} [FloatOps F] (main_arg4 : FVec F S256x64 .f32) (main_arg5 : FVec F S2x64 .f32) (main_arg6 : FVec F S64x128 .f32) (main_arg7 : FVec F S16x128 .f32) (main_arg8 : FVec F S1x128 .f32) (main_v13 : IVec S_ 1) (main_v16 : IVec S2x256 1) : IVec S_ 1 :=
  let main_c_5 : IVec S_ 1 := constantI S_ 1 1#1
  let main_v17 : IVec S_ 1 := (fun x v => Host.reduce IntOp.andi x v reducesTo_S2x256_S_d0_1 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S2x64 .f32 := Host.absf main_arg5
  let main_cst_8 : FVec F S_ .f32 := constant S_ .f32 0x7F800000#32
  let main_v25 : FVec F S2x64 .f32 := broadcastInDim S2x64 ![] bcast_S_S2x64 main_cst_8
  let main_v26 : IVec S2x64 1 := cmpf .olt main_v24 main_v25
  let main_c_9 : IVec S_ 1 := constantI S_ 1 1#1
  let main_v27 : IVec S_ 1 := (fun x v => Host.reduce IntOp.andi x v reducesTo_S2x64_S_d0_1 h_S_) main_v26 main_c_9
  let main_v28 : IVec S_ 1 := andi main_v23 main_v27
  let main_v29 : FVec F S64x128 .f32 := Host.absf main_arg6
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg7 main_arg8 main_v33

def fn {F : FTy → Type} [FloatOps F] (main_arg0 : FVec F S8192x512 .f32) (main_arg1 : FVec F S8192x16 .f32) (main_arg2 : FVec F S512x256 .f32) (main_arg3 : FVec F S2x256 .f32) (main_arg4 : FVec F S256x64 .f32) (main_arg5 : FVec F S2x64 .f32) (main_arg6 : FVec F S64x128 .f32) (main_arg7 : FVec F S16x128 .f32) (main_arg8 : FVec F S1x128 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x16 .f32 := Host.absf main_arg1
  let main_cst_0 : FVec F S_ .f32 := constant S_ .f32 0x7F800000#32
  let main_v5 : FVec F S8192x16 .f32 := broadcastInDim S8192x16 ![] bcast_S_S8192x16 main_cst_0
  let main_v6 : IVec S8192x16 1 := cmpf .olt main_v4 main_v5
  let main_c_1 : IVec S_ 1 := constantI S_ 1 1#1
  let main_v7 : IVec S_ 1 := (fun x v => Host.reduce IntOp.andi x v reducesTo_S8192x16_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S2x256 .f32 := Host.absf main_arg3
  let main_cst_4 : FVec F S_ .f32 := constant S_ .f32 0x7F800000#32
  let main_v15 : FVec F S2x256 .f32 := broadcastInDim S2x256 ![] bcast_S_S2x256 main_cst_4
  let main_v16 : IVec S2x256 1 := cmpf .olt main_v14 main_v15
  fn_part1 (F := F) main_arg4 main_arg5 main_arg6 main_arg7 main_arg8 main_v13 main_v16
-- ==== Kernel.lean ====
abbrev S8192x512 : Shape := ⟨2, ![8192, 512]⟩
abbrev S8192x16 : Shape := ⟨2, ![8192, 16]⟩
abbrev S512x256 : Shape := ⟨2, ![512, 256]⟩
abbrev S2x256 : Shape := ⟨2, ![2, 256]⟩
abbrev S256x64 : Shape := ⟨2, ![256, 64]⟩
abbrev S2x64 : Shape := ⟨2, ![2, 64]⟩
abbrev S64x128 : Shape := ⟨2, ![64, 128]⟩
abbrev S16x128 : Shape := ⟨2, ![16, 128]⟩
abbrev S1x128 : Shape := ⟨2, ![1, 128]⟩
abbrev S8192x256 : Shape := ⟨2, ![8192, 256]⟩
abbrev S8x2x256 : Shape := ⟨3, ![8, 2, 256]⟩
abbrev S1024x512 : Shape := ⟨2, ![1024, 512]⟩
abbrev S1024x256 : Shape := ⟨2, ![1024, 256]⟩
abbrev S1x2x256 : Shape := ⟨3, ![1, 2, 256]⟩
abbrev S256 : Shape := ⟨1, ![256]⟩
abbrev S1x256 : Shape := ⟨2, ![1, 256]⟩
abbrev S8192x3 : Shape := ⟨2, ![8192, 3]⟩
abbrev S8192x64 : Shape := ⟨2, ![8192, 64]⟩
abbrev S64 : Shape := ⟨1, ![64]⟩
abbrev S1x64 : Shape := ⟨2, ![1, 64]⟩
abbrev S8192x128 : Shape := ⟨2, ![8192, 128]⟩

abbrev nBuf : Space → Nat
  | .hbm => 12
  | .vmem => 17
  | .smem => 0
  | _ => 0

abbrev bufTy : (tb : Table) → Fin (tcTables nBuf tb) → BufTy
  | .hbm, ⟨0, _⟩ => ⟨S8192x512, .f32⟩
  | .hbm, ⟨1, _⟩ => ⟨S8192x16, .f32⟩
  | .hbm, ⟨2, _⟩ => ⟨S512x256, .f32⟩
  | .hbm, ⟨3, _⟩ => ⟨S2x256, .f32⟩
  | .hbm, ⟨4, _⟩ => ⟨S256x64, .f32⟩
  | .hbm, ⟨5, _⟩ => ⟨S2x64, .f32⟩
  | .hbm, ⟨6, _⟩ => ⟨S64x128, .f32⟩
  | .hbm, ⟨7, _⟩ => ⟨S16x128, .f32⟩
  | .hbm, ⟨8, _⟩ => ⟨S1x128, .f32⟩
  | .hbm, ⟨9, _⟩ => ⟨S8192x256, .f32⟩
  | .hbm, ⟨10, _⟩ => ⟨S8x2x256, .f32⟩
  | .hbm, ⟨11, _⟩ => ⟨S8192x3, .f32⟩
  | .local _ .vmem, ⟨0, _⟩ => ⟨S1024x512, .f32⟩
  | .local _ .vmem, ⟨1, _⟩ => ⟨S1024x512, .f32⟩
  | .local _ .vmem, ⟨2, _⟩ => ⟨S512x256, .f32⟩
  | .local _ .vmem, ⟨3, _⟩ => ⟨S1024x256, .f32⟩
  | .local _ .vmem, ⟨4, _⟩ => ⟨S1024x256, .f32⟩
  | .local _ .vmem, ⟨5, _⟩ => ⟨S1x2x256, .f32⟩
  | .local _ .vmem, ⟨6, _⟩ => ⟨S1x2x256, .f32⟩
  | .local _ .vmem, ⟨7, _⟩ => ⟨S8192x256, .f32⟩
  | .local _ .vmem, ⟨8, _⟩ => ⟨S8x2x256, .f32⟩
  | .local _ .vmem, ⟨9, _⟩ => ⟨S2x256, .f32⟩
  | .local _ .vmem, ⟨10, _⟩ => ⟨S256x64, .f32⟩
  | .local _ .vmem, ⟨11, _⟩ => ⟨S2x64, .f32⟩
  | .local _ .vmem, ⟨12, _⟩ => ⟨S64x128, .f32⟩
  | .local _ .vmem, ⟨13, _⟩ => ⟨S8192x16, .f32⟩
  | .local _ .vmem, ⟨14, _⟩ => ⟨S16x128, .f32⟩
  | .local _ .vmem, ⟨15, _⟩ => ⟨S1x128, .f32⟩
  | .local _ .vmem, ⟨16, _⟩ => ⟨S8192x3, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S8192x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S8x2x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8192x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S16x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S8192x3 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  reduces_S1024x256_S256 : S1024x256.Reduces [0] S256
  shapeCasts_S256_S1x256 : S256.ShapeCasts S1x256
  concatenates_S1x256_S1x256_S2x256_d0 : Shape.Concatenates [S1x256, S1x256] S2x256 0
  shapeCasts_S2x256_S1x2x256 : S2x256.ShapeCasts S1x2x256
  inb_S1x2x256_S1x2x256_0_0_0 : ∀ a, (![0, 0, 0] : Fin 3 → Nat) a + S1x2x256.size a ≤ S1x2x256.size a
  h_S1x2x256 : 0 < S1x2x256.numel
  inb_S8x2x256_S8x2x256_0_0_0 : ∀ a, (![0, 0, 0] : Fin 3 → Nat) a + S8x2x256.size a ≤ S8x2x256.size a
  h_S8x2x256 : 0 < S8x2x256.numel
  shapeCasts_S8x2x256_S8x2x256 : S8x2x256.ShapeCasts S8x2x256
  reduces_S8x2x256_S2x256 : S8x2x256.Reduces [0] S2x256
  slices_S2x256_o0_0_S1x256 : S2x256.Slices ![0, 0] S1x256
  slices_S2x256_o1_0_S1x256 : S2x256.Slices ![1, 0] S1x256
  inb_S2x256_S1x256_0_0 : ∀ a, (![0, 0] : Fin 2 → Nat) a + S1x256.size a ≤ S2x256.size a
  h_S1x256 : 0 < S1x256.numel
  inb_S2x256_S1x256_1_0 : ∀ a, (![1, 0] : Fin 2 → Nat) a + S1x256.size a ≤ S2x256.size a
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  broadcasts_S1x256_S8192x256 : S1x256.Broadcasts S8192x256
  inb_S256x64_S256x64_0_0 : ∀ a, (![0, 0] : Fin 2 → Nat) a + S256x64.size a ≤ S256x64.size a
  h_S256x64 : 0 < S256x64.numel
  reduces_S8192x64_S64 : S8192x64.Reduces [0] S64
  shapeCasts_S64_S1x64 : S64.ShapeCasts S1x64
  inb_S2x64_S1x64_0_0 : ∀ a, (![0, 0] : Fin 2 → Nat) a + S1x64.size a ≤ S2x64.size a
  h_S1x64 : 0 < S1x64.numel
  inb_S2x64_S1x64_1_0 : ∀ a, (![1, 0] : Fin 2 → Nat) a + S1x64.size a ≤ S2x64.size a
  broadcasts_S1x64_S8192x64 : S1x64.Broadcasts S8192x64
  inb_S64x128_S64x128_0_0 : ∀ a, (![0, 0] : Fin 2 → Nat) a + S64x128.size a ≤ S64x128.size a
  h_S64x128 : 0 < S64x128.numel
  inb_S8192x16_S8192x16_0_0 : ∀ a, (![0, 0] : Fin 2 → Nat) a + S8192x16.size a ≤ S8192x16.size a
  h_S8192x16 : 0 < S8192x16.numel
  inb_S16x128_S16x128_0_0 : ∀ a, (![0, 0] : Fin 2 → Nat) a + S16x128.size a ≤ S16x128.size a
  h_S16x128 : 0 < S16x128.numel
  inb_S1x128_S1x128_0_0 : ∀ a, (![0, 0] : Fin 2 → Nat) a + S1x128.size a ≤ S1x128.size a
  h_S1x128 : 0 < S1x128.numel
  broadcasts_S1x128_S8192x128 : S1x128.Broadcasts S8192x128
  slices_S8192x128_o0_0_S8192x3 : S8192x128.Slices ![0, 0] S8192x3
  inb_S8192x3_S8192x3_0_0 : ∀ a, (![0, 0] : Fin 2 → Nat) a + S8192x3.size a ≤ S8192x3.size a
  h_S8192x3 : 0 < S8192x3.numel
  dot_S1024x512_S512x256_S1024x256_1_0_0_1_n_n_wf : DotDims.WF S1024x512 S512x256 S1024x256 [1] [0] [0] [1] [] []
  dot_S8192x256_S256x64_S8192x64_1_0_0_1_n_n_wf : DotDims.WF S8192x256 S256x64 S8192x64 [1] [0] [0] [1] [] []
  dot_S8192x64_S64x128_S8192x128_1_0_0_1_n_n_wf : DotDims.WF S8192x64 S64x128 S8192x128 [1] [0] [0] [1] [] []
  dot_S8192x16_S16x128_S8192x128_1_0_0_1_n_n_wf : DotDims.WF S8192x16 S16x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .f32 = 32 ∨ (Rect.block (s := S8192x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2x256.size a ≤ S8x2x256.size a
  hwx0_3 : ∀ i : grid0.Coords, EltTy.bits .f32 = 32 ∨ (Rect.block (s := S8x2x256) S1x2x256.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8192x256.size a ≤ S8192x256.size a
  hwx1_0 : ∀ i : grid1.Coords, EltTy.bits .f32 = 32 ∨ (Rect.block (s := S8192x256) S8192x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x2x256.size a ≤ S8x2x256.size a
  hwx1_1 : ∀ i : grid1.Coords, EltTy.bits .f32 = 32 ∨ (Rect.block (s := S8x2x256) S8x2x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x256.size a ≤ S2x256.size a
  hwx1_2 : ∀ i : grid1.Coords, EltTy.bits .f32 = 32 ∨ (Rect.block (s := S2x256) S2x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S256x64.size a
  hwx1_3 : ∀ i : grid1.Coords, EltTy.bits .f32 = 32 ∨ (Rect.block (s := S256x64) S256x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2x64.size a ≤ S2x64.size a
  hwx1_4 : ∀ i : grid1.Coords, EltTy.bits .f32 = 32 ∨ (Rect.block (s := S2x64) S2x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x128.size a ≤ S64x128.size a
  hwx1_5 : ∀ i : grid1.Coords, EltTy.bits .f32 = 32 ∨ (Rect.block (s := S64x128) S64x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S8192x16.size a ≤ S8192x16.size a
  hwx1_6 : ∀ i : grid1.Coords, EltTy.bits .f32 = 32 ∨ (Rect.block (s := S8192x16) S8192x16.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S16x128.size a ≤ S16x128.size a
  hwx1_7 : ∀ i : grid1.Coords, EltTy.bits .f32 = 32 ∨ (Rect.block (s := S16x128) S16x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S8192x3.size a ≤ S8192x3.size a
  hwx1_9 : ∀ i : grid1.Coords, EltTy.bits .f32 = 32 ∨ (Rect.block (s := S8192x3) S8192x3.size (cc1_transform_9 i) (hinb1_9 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S8192x16_S16x128_S8192x128_1_0_0_1_n_n : DotDims S8192x16 S16x128 S8192x128 where
  lhsContracting := [1]
  rhsContracting := [0]
  lhsNonContracting := [0]
  rhsNonContracting := [1]
  lhsBatch := []
  rhsBatch := []
  wf := dot_S8192x16_S16x128_S8192x128_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x2x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0_0) S8192x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S8x2x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S2x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S2x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S64x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg1) S8192x16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg7) S16x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg8) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v1) S8192x3.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S8192x512 : Shape := ⟨2, ![8192, 512]⟩
abbrev S8192x16 : Shape := ⟨2, ![8192, 16]⟩
abbrev S512x256 : Shape := ⟨2, ![512, 256]⟩
abbrev S2x256 : Shape := ⟨2, ![2, 256]⟩
abbrev S256x64 : Shape := ⟨2, ![256, 64]⟩
abbrev S2x64 : Shape := ⟨2, ![2, 64]⟩
abbrev S64x128 : Shape := ⟨2, ![64, 128]⟩
abbrev S16x128 : Shape := ⟨2, ![16, 128]⟩
abbrev S1x128 : Shape := ⟨2, ![1, 128]⟩
abbrev S8192x128 : Shape := ⟨2, ![8192, 128]⟩
abbrev S8192x256 : Shape := ⟨2, ![8192, 256]⟩
abbrev S256 : Shape := ⟨1, ![256]⟩
abbrev S1x256 : Shape := ⟨2, ![1, 256]⟩
abbrev S8192x64 : Shape := ⟨2, ![8192, 64]⟩
abbrev S64 : Shape := ⟨1, ![64]⟩
abbrev S1x64 : Shape := ⟨2, ![1, 64]⟩
abbrev S8192x3 : Shape := ⟨2, ![8192, 3]⟩

abbrev nBuf : Space → Nat
  | .hbm => 14
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S8192x16, .f32⟩
  | .hbm, ⟨2, _⟩ => ⟨S512x256, .f32⟩
  | .hbm, ⟨3, _⟩ => ⟨S2x256, .f32⟩
  | .hbm, ⟨4, _⟩ => ⟨S256x64, .f32⟩
  | .hbm, ⟨5, _⟩ => ⟨S2x64, .f32⟩
  | .hbm, ⟨6, _⟩ => ⟨S64x128, .f32⟩
  | .hbm, ⟨7, _⟩ => ⟨S16x128, .f32⟩
  | .hbm, ⟨8, _⟩ => ⟨S1x128, .f32⟩
  | .hbm, ⟨9, _⟩ => ⟨S8192x128, .f32⟩
  | .hbm, ⟨10, _⟩ => ⟨S8192x128, .f32⟩
  | .hbm, ⟨11, _⟩ => ⟨S8192x128, .f32⟩
  | .hbm, ⟨12, _⟩ => ⟨S8192x128, .f32⟩
  | .hbm, ⟨13, _⟩ => ⟨S8192x3, .f32⟩
  | .local _ .vmem, ⟨0, _⟩ => ⟨S8192x512, .f32⟩
  | .local _ .vmem, ⟨1, _⟩ => ⟨S8192x128, .f32⟩
  | .local _ .vmem, ⟨2, _⟩ => ⟨S512x256, .f32⟩
  | .local _ .vmem, ⟨3, _⟩ => ⟨S2x256, .f32⟩
  | .local _ .vmem, ⟨4, _⟩ => ⟨S256x64, .f32⟩
  | .local _ .vmem, ⟨5, _⟩ => ⟨S2x64, .f32⟩
  | .local _ .vmem, ⟨6, _⟩ => ⟨S64x128, .f32⟩
  | .local _ .vmem, ⟨7, _⟩ => ⟨S8192x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8192x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  bcast_S1x128_S8192x128_0_1 : S1x128.BroadcastsInDim S8192x128 (![0, 1] : Fin 2 → Fin S8192x128.rank)
  inb_S8192x512_S8192x512_0_0 : ∀ a, (![0, 0] : Fin 2 → Nat) a + S8192x512.size a ≤ S8192x512.size a
  h_S8192x512 : 0 < S8192x512.numel
  inb_S512x256_S512x256_0_0 : ∀ a, (![0, 0] : Fin 2 → Nat) a + S512x256.size a ≤ S512x256.size a
  h_S512x256 : 0 < S512x256.numel
  reduces_S8192x256_S256 : S8192x256.Reduces [0] S256
  shapeCasts_S256_S1x256 : S256.ShapeCasts S1x256
  inb_S2x256_S1x256_0_0 : ∀ a, (![0, 0] : Fin 2 → Nat) a + S1x256.size a ≤ S2x256.size a
  h_S1x256 : 0 < S1x256.numel
  shapeCasts_S1x256_S256 : S1x256.ShapeCasts S256
  broadcasts_S1x256_S8192x256 : S1x256.Broadcasts S8192x256
  inb_S2x256_S1x256_1_0 : ∀ a, (![1, 0] : Fin 2 → Nat) a + S1x256.size a ≤ S2x256.size a
  inb_S256x64_S256x64_0_0 : ∀ a, (![0, 0] : Fin 2 → Nat) a + S256x64.size a ≤ S256x64.size a
  h_S256x64 : 0 < S256x64.numel
  reduces_S8192x64_S64 : S8192x64.Reduces [0] S64
  shapeCasts_S64_S1x64 : S64.ShapeCasts S1x64
  inb_S2x64_S1x64_0_0 : ∀ a, (![0, 0] : Fin 2 → Nat) a + S1x64.size a ≤ S2x64.size a
  h_S1x64 : 0 < S1x64.numel
  shapeCasts_S1x64_S64 : S1x64.ShapeCasts S64
  broadcasts_S1x64_S8192x64 : S1x64.Broadcasts S8192x64
  inb_S2x64_S1x64_1_0 : ∀ a, (![1, 0] : Fin 2 → Nat) a + S1x64.size a ≤ S2x64.size a
  inb_S64x128_S64x128_0_0 : ∀ a, (![0, 0] : Fin 2 → Nat) a + S64x128.size a ≤ S64x128.size a
  h_S64x128 : 0 < S64x128.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  slices_S8192x128_S8192x3_0_0 : S8192x128.Slices ![0, 0] S8192x3
  dot_S8192x16_S16x128_S8192x128_1_0_0_1_n_n_wf : DotDims.WF S8192x16 S16x128 S8192x128 [1] [0] [0] [1] [] []
  dot_S8192x512_S512x256_S8192x256_1_0_0_1_n_n_wf : DotDims.WF S8192x512 S512x256 S8192x256 [1] [0] [0] [1] [] []
  dot_S8192x256_S256x64_S8192x64_1_0_0_1_n_n_wf : DotDims.WF S8192x256 S256x64 S8192x64 [1] [0] [0] [1] [] []
  dot_S8192x64_S64x128_S8192x128_1_0_0_1_n_n_wf : DotDims.WF S8192x64 S64x128 S8192x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x512.size a ≤ S8192x512.size a
  hwx0_0 : ∀ i : grid0.Coords, EltTy.bits .f32 = 32 ∨ (Rect.block (s := S8192x512) S8192x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x256.size a ≤ S2x256.size a
  hwx0_3 : ∀ i : grid0.Coords, EltTy.bits .f32 = 32 ∨ (Rect.block (s := S2x256) S2x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S256x64.size a
  hwx0_4 : ∀ i : grid0.Coords, EltTy.bits .f32 = 32 ∨ (Rect.block (s := S256x64) S256x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x64.size a ≤ S2x64.size a
  hwx0_5 : ∀ i : grid0.Coords, EltTy.bits .f32 = 32 ∨ (Rect.block (s := S2x64) S2x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S64x128.size a
  hwx0_6 : ∀ i : grid0.Coords, EltTy.bits .f32 = 32 ∨ (Rect.block (s := S64x128) S64x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8192x128.size a ≤ S8192x128.size a
  hwx0_7 : ∀ i : grid0.Coords, EltTy.bits .f32 = 32 ∨ (Rect.block (s := S8192x128) S8192x128.size (cc0_transform_7 i) (hinb0_7 i)).WholeWords (EltTy.packing .f32)

variable [Facts₀]

def dot_S8192x16_S16x128_S8192x128_1_0_0_1_n_n : DotDims S8192x16 S16x128 S8192x128 where
  lhsContracting := [1]
  rhsContracting := [0]
  lhsNonContracting := [0]
  rhsNonContracting := [1]
  lhsBatch := []
  rhsBatch := []
  wf := dot_S8192x16_S16x128_S8192x128_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf

abbrev win0_0 : Pipeline.Window sig grid0 :=
  Pipeline.Window.ofSpec (Memref.whole main_arg0) S8192x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S8192x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.LibColMoments.lean ====
/-
  Sums down the columns of a kernel's arrays, read at an index, over the extended reals.

  A two-axis array x : [R, C] summed along its first axis from zero and viewed as one row [1, C] reads, at (0, c),
  the plain sum Σ_r x (r, c). A three-axis array y : [B, S, C] summed along its first axis from zero reads, at (s, c),
  the sum Σ_b y (b, s, c). Only the definition of the reduction as a sum over the reduced axis is used, so nothing here
  needs finiteness.
-/
import Mathlib
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.Lib.ColMoments

open Idealize.ShloMosaic Idealize.ShloMosaic.ValueIdx

variable {R C B S : Nat}

/-- The reduced index c with row r put back is (r, c). -/
theorem lift_col (h : (⟨2, ![R, C]⟩ : Shape).Reduces [0] (⟨1, ![C]⟩ : Shape)) (c : Fin C)
    (k : Fin ((⟨2, ![R, C]⟩ : Shape).size 0)) : h.lift (ix1 c) k = ix2 (⟨k.val, k.isLt⟩ : Fin R) c := by
  funext a; apply Fin.ext
  fin_cases a <;> rfl

/-- The reduced index (s, c) with the leading coordinate b put back is (b, s, c). -/
theorem lift_lead (h : (⟨3, ![B, S, C]⟩ : Shape).Reduces [0] (⟨2, ![S, C]⟩ : Shape)) (s : Fin S) (c : Fin C)
    (k : Fin ((⟨3, ![B, S, C]⟩ : Shape).size 0)) : h.lift (ix2 s c) k = ix3 (⟨k.val, k.isLt⟩ : Fin B) s c := by
  funext a; apply Fin.ext
  fin_cases a <;> rfl

/-- A kernel's sum along axis 0 of [R, C] from zero, at column c. -/
theorem colSum_apply (x : FVec Ideal ⟨2, ![R, C]⟩ .f32) (acc : BitVec 32)
    (h : (⟨2, ![R, C]⟩ : Shape).Reduces [0] (⟨1, ![C]⟩ : Shape)) (hφ : FKind.Formats .f32)
    (hacc : acc = FKind.add.neutral .f32 hφ) (c : Fin C) :
    multiReduction .add [0] (⟨1, ![C]⟩ : Shape) x acc h hφ hacc (ix1 c) = ∑ r : Fin R, x (ix2 r c) := by
  refine (Ideal.multiReduction_add_single x acc h hφ hacc (ix1 c)).trans ?_
  refine Finset.sum_congr rfl fun k _ => ?_
  exact congrArg x (lift_col h c k)

/-- The same sum viewed as one row [1, C], at (u, c). -/
theorem colSum_row_apply (x : FVec Ideal ⟨2, ![R, C]⟩ .f32) (acc : BitVec 32)
    (h : (⟨2, ![R, C]⟩ : Shape).Reduces [0] (⟨1, ![C]⟩ : Shape)) (hφ : FKind.Formats .f32)
    (hacc : acc = FKind.add.neutral .f32 hφ) (hc : (⟨1, ![C]⟩ : Shape).ShapeCasts ⟨2, ![1, C]⟩) (u : Fin 1) (c : Fin C) :
    shapeCast (⟨2, ![1, C]⟩ : Shape) (multiReduction .add [0] (⟨1, ![C]⟩ : Shape) x acc h hφ hacc) hc (ix2 u c)
      = ∑ r : Fin R, x (ix2 r c) :=
  (shapeCast_a_1a_apply _ hc u c).trans (colSum_apply x acc h hφ hacc c)

/-- A kernel's sum along axis 0 of [B, S, C] from zero, at (s, c). -/
theorem leadSum_apply (y : FVec Ideal ⟨3, ![B, S, C]⟩ .f32) (acc : BitVec 32)
    (h : (⟨3, ![B, S, C]⟩ : Shape).Reduces [0] (⟨2, ![S, C]⟩ : Shape)) (hφ : FKind.Formats .f32)
    (hacc : acc = FKind.add.neutral .f32 hφ) (s : Fin S) (c : Fin C) :
    multiReduction .add [0] (⟨2, ![S, C]⟩ : Shape) y acc h hφ hacc (ix2 s c) = ∑ b : Fin B, y (ix3 b s c) := by
  refine (Ideal.multiReduction_add_single y acc h hφ hacc (ix2 s c)).trans ?_
  refine Finset.sum_congr rfl fun k _ => ?_
  exact congrArg y (lift_lead h s c k)

end Cert.Lib.ColMoments

end
-- ==== Proof.KStage1.lean ====
/-
  The first kernel's stores, read at an index over the extended reals.

  At a grid point the first kernel loads a block xb : [1024, 512] of the input rows and the whole weight w : [512, 256];
  it stores their product P (entry (p, q) is Σ_k xb (p, k) · w (k, q); rounding the operands to a shorter format
  changes nothing over the extended reals) and a block [1, 2, 256] whose row 0 holds the column sums Σ_p P (p, c) and
  whose row 1 holds the column sums of squares Σ_p P (p, c) · P (p, c).
-/
import proofs.«123823_g2000409341698180_pallasbulk_363_2_alg».proof.Proof.Gen.KernelIdeal.Skeleton
import proofs.«123823_g2000409341698180_pallasbulk_363_2_alg».proof.Proof.LibDotRows
import proofs.«123823_g2000409341698180_pallasbulk_363_2_alg».proof.Proof.LibColMoments

noncomputable section

open scoped BigOperators

namespace Cert.KernelIdeal.Stage1

open Idealize.ShloMosaic Idealize.ShloMosaic.ValueIdx Cert.KernelIdeal Cert.KernelIdeal.Gen

/-- The first product's dimension numbers are the plain ones: contract axis 1 of [1024, 512] with axis 0 of [512, 256]. -/
theorem dims_plain : dot_S1024x512_S512x256_S1024x256_1_0_0_1_n_n = DotDims.plain 1024 512 256 := rfl

/-- Entry (p, q) of the stored product block. -/
theorem prod_apply (xb : Vec Ideal S1024x512 .f32) (w : Vec Ideal S512x256 .f32) (p : Fin 1024) (q : Fin 256) :
    k0_pay1 (F := Ideal) xb w (ix2 p q) = ∑ k : Fin 512, xb (ix2 p k) * w (ix2 k q) := by
  unfold k0_pay1
  rw [dims_plain]
  exact Cert.Lib.DotRows.matmul_plain_apply _ _ p q

/-- Row 0 of the stored statistics block: the column sums of the product. -/
theorem stats_sum_apply (xb : Vec Ideal S1024x512 .f32) (w : Vec Ideal S512x256 .f32) (u : Fin 1) (c : Fin 256) :
    k0_pay2 (F := Ideal) xb w (ix3 u (0 : Fin 2) c) = ∑ p : Fin 1024, k0_pay1 (F := Ideal) xb w (ix2 p c) := by
  unfold k0_pay2
  refine (shapeCast_ab_1ab_apply _ _ u (0 : Fin 2) c).trans ?_
  refine (concatenate_pair_apply_left (s₁ := S1x256) (s₂ := S1x256) (0 : Fin 2) _ _ _ (ix2 (0 : Fin 2) c) rfl (ix2 (0 : Fin 1) c) (fun b => by
    match b with
    | ⟨0, _⟩ => rfl
    | ⟨1, _⟩ => rfl)).trans ?_
  exact Cert.Lib.ColMoments.colSum_row_apply _ _ _ _ _ _ (0 : Fin 1) c

/-- Row 1 of the stored statistics block: the column sums of the squares of the product. -/
theorem stats_sq_apply (xb : Vec Ideal S1024x512 .f32) (w : Vec Ideal S512x256 .f32) (u : Fin 1) (c : Fin 256) :
    k0_pay2 (F := Ideal) xb w (ix3 u (1 : Fin 2) c)
      = ∑ p : Fin 1024, k0_pay1 (F := Ideal) xb w (ix2 p c) * k0_pay1 (F := Ideal) xb w (ix2 p c) := by
  unfold k0_pay2
  refine (shapeCast_ab_1ab_apply _ _ u (1 : Fin 2) c).trans ?_
  refine (concatenate_pair_apply_right (s₁ := S1x256) (s₂ := S1x256) (0 : Fin 2) _ _ _ (ix2 (1 : Fin 2) c) rfl rfl (ix2 (0 : Fin 1) c) (fun b hb => by
    match b with
    | ⟨0, _⟩ => exact absurd rfl hb
    | ⟨1, _⟩ => rfl) rfl).trans ?_
  exact Cert.Lib.ColMoments.colSum_row_apply _ _ _ _ _ _ (0 : Fin 1) c

end Cert.KernelIdeal.Stage1

end
-- ==== Proof.KStage1Arrays.lean ====
/-
  The first kernel's two result arrays after its eight grid points, as whole functions of the argument arrays.

  Point t reads rows 1024·t … 1024·t + 1023 of the input x : [8192, 512] and the whole weight w : [512, 256], and writes
  back block t of each result: rows 1024·t … of the product array, and slab t of the statistics array [8, 2, 256]. The
  blocks tile the result arrays (row r lies in block r / 1024; slab b is block b), so after the last point the product
  array holds H (r, c) = Σ_k x (r, k) · w (k, c) everywhere, and the statistics array holds, at (b, 0, c), the sum of
  H (1024·b + p, c) over the 1024 rows p of block b, and at (b, 1, c) the sum of their squares.
-/
import proofs.«123823_g2000409341698180_pallasbulk_363_2_alg».proof.Proof.Gen.KernelIdeal.Frame
import proofs.«123823_g2000409341698180_pallasbulk_363_2_alg».proof.Proof.KStage1
import Idealize.ShloMosaic.Lib.Pipeline.Value

noncomputable section

open scoped BigOperators

namespace Cert.KernelIdeal.Stage1

open Idealize.ShloMosaic Idealize.ShloMosaic.TcCoe Idealize.SL.Sem Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The product array: entry (r, c) is Σ_k x (r, k) · w (k, c). -/
def prodArr (X : S8192x512.Idx → EReal) (W : S512x256.Idx → EReal) : S8192x256.Idx → EReal :=
  fun i => ∑ k : Fin 512, X (ix2 (⟨(i 0).val, idx2_lt0 i⟩ : Fin 8192) k) * W (ix2 k (⟨(i 1).val, idx2_lt1 i⟩ : Fin 256))

theorem prodArr_apply (X : S8192x512.Idx → EReal) (W : S512x256.Idx → EReal) (r : Fin 8192) (c : Fin 256) :
    prodArr X W (ix2 r c) = ∑ k : Fin 512, X (ix2 r k) * W (ix2 k c) := rfl

/-- Row 1024·b + p of an array of 8192 rows. -/
def blockRow (b : Fin 8) (p : Fin 1024) : Fin 8192 := ⟨b.val * 1024 + p.val, by have := b.isLt; have := p.isLt; omega⟩

/-- The statistics at (b, s, c): over the rows of block b, the sum of column c (s = 0) or of its squares (s = 1). -/
def statsAt (H : S8192x256.Idx → EReal) (b : Fin 8) (s : Fin 2) (c : Fin 256) : EReal :=
  if s.val = 0 then ∑ p : Fin 1024, H (ix2 (blockRow b p) c) else ∑ p : Fin 1024, H (ix2 (blockRow b p) c) * H (ix2 (blockRow b p) c)

/-- The statistics array. -/
def statsArr (H : S8192x256.Idx → EReal) : S8x2x256.Idx → EReal :=
  fun i => statsAt H (⟨(i 0).val, (i 0).isLt⟩ : Fin 8) (⟨(i 1).val, (i 1).isLt⟩ : Fin 2) (⟨(i 2).val, (i 2).isLt⟩ : Fin 256)

theorem statsArr_apply (H : S8192x256.Idx → EReal) (b : Fin 8) (s : Fin 2) (c : Fin 256) :
    statsArr H (ix3 b s c) = statsAt H b s c := rfl

/-- The printed index maps over the grid: the input rows, the product rows and the statistics slab move with the point;
    the weight stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

theorem t_lt (t : Fin cfg0.N) : t.val < 8 := lt_of_lt_of_eq t.isLt N_0

/-- The input block at point t is rows 1024·t … of the input array. -/
theorem xblk_apply (c : Dev nD) (t : Fin cfg0.N) (p : Fin 1024) (k : Fin 512) (r : Fin 8192) (hr : r.val = t.val * 1024 + p.val) :
    (iblk0 V c 0 t : Vec Ideal S1024x512 .f32) (ix2 p k) = (V c main_arg0 : S8192x512.Idx → EReal) (ix2 r k) := by
  obtain ⟨e00, e01, -⟩ := idx_facts t
  unfold iblk0
  rw [View.read_apply]
  show V c main_arg0 _ = V c main_arg0 _
  refine congrArg _ (funext fun a => Fin.ext ?_)
  match a with
  | ⟨0, _⟩ => show win0_0.index t (0 : Fin 2) * 1024 + 1 * p.val = r.val; rw [e00, hr]; omega
  | ⟨1, _⟩ => show win0_0.index t (1 : Fin 2) * 512 + 1 * k.val = k.val; rw [e01]; omega

/-- The weight block at every point is the whole weight array. -/
theorem wblk_apply (c : Dev nD) (t : Fin cfg0.N) (k : Fin 512) (q : Fin 256) :
    (iblk0 V c 1 t : Vec Ideal S512x256 .f32) (ix2 k q) = (V c main_arg2 : S512x256.Idx → EReal) (ix2 k q) := by
  obtain ⟨-, -, e10, e11, -⟩ := idx_facts t
  unfold iblk0
  rw [View.read_apply]
  show V c main_arg2 _ = V c main_arg2 _
  refine congrArg _ (funext fun a => Fin.ext ?_)
  match a with
  | ⟨0, _⟩ => show win0_1.index t (0 : Fin 2) * 512 + 1 * k.val = k.val; rw [e10]; omega
  | ⟨1, _⟩ => show win0_1.index t (1 : Fin 2) * 256 + 1 * q.val = q.val; rw [e11]; omega

/-- The product the body forms at point t, at (p, q), is entry (1024·t + p, q) of the product array. -/
theorem prod_blk (c : Dev nD) (t : Fin cfg0.N) (p : Fin 1024) (q : Fin 256) (r : Fin 8192) (hr : r.val = t.val * 1024 + p.val) :
    k0_pay1 (F := Ideal) (iblk0 V c 0 t) (iblk0 V c 1 t) (ix2 p q) = prodArr (V c main_arg0) (V c main_arg2) (ix2 r q) := by
  refine (prod_apply _ _ p q).trans ?_
  rw [prodArr_apply]
  refine Finset.sum_congr rfl fun k _ => ?_
  rw [xblk_apply V c t p k r hr, wblk_apply V c t k q]

/-- WHAT POINT t WRITES BACK to the product array is block t of the product array. -/
theorem flushed2_eq (c : Dev nD) (t : Fin cfg0.N) :
    (dat0 V c).flushed 2 t = ((cfg0.win 2).blk t).view.read (Elt Ideal) (prodArr (V c main_arg0) (V c main_arg2)) := by
  show (cfg0.win 2).cut (grid0.coords t) ((dat0 V c).after 2 t) = _
  rw [after0_2]
  unfold out0_2
  rw [View.canon_unit_zero hz2]
  simp only [View.ld_unit_zero (S := S1024x512) hz2, View.ld_unit_zero (S := S512x256) hz2]
  obtain ⟨-, -, -, -, e20, e21, -⟩ := idx_facts t
  have ht := t_lt t
  funext j
  obtain ⟨p, q, rfl⟩ : ∃ (p : Fin 1024) (q : Fin 256), j = ix2 p q := ⟨j 0, j 1, eq_ix2 j⟩
  show k0_pay1 (F := Ideal) (iblk0 V c 0 t) (iblk0 V c 1 t) (ix2 p q)
    = prodArr (V c main_arg0) (V c main_arg2) (((cfg0.win 2).blk t).view.emb (ix2 p q))
  have hr : t.val * 1024 + p.val < 8192 := by have := p.isLt; omega
  rw [prod_blk V c t p q ⟨t.val * 1024 + p.val, hr⟩ rfl]
  refine congrArg _ (funext fun a => Fin.ext ?_)
  match a with
  | ⟨0, _⟩ => show t.val * 1024 + p.val = win0_2.index t (0 : Fin 2) * 1024 + 1 * p.val; rw [e20]; omega
  | ⟨1, _⟩ => show q.val = win0_2.index t (1 : Fin 2) * 256 + 1 * q.val; rw [e21]; omega

/-- An index of the product array is in point t's block iff each coordinate is in the block's range. -/
theorem mem_blk2 (t : Fin cfg0.N) (i : S8192x256.Idx) :
    i ∈ ((cfg0.win 2).blk t).view.set ↔ ∀ a : Fin 2, win0_2.index t a * S1024x256.size a ≤ (i a).val ∧ (i a).val < win0_2.index t a * S1024x256.size a + S1024x256.size a := by
  show i ∈ ((View.whole main_v0_0).slice (win0_2.rect t)).set ↔ _
  rw [View.set_slice_whole, Rect.mem_set_unit]
  exact Iff.rfl

/-- Row r of the product array lies in the block of point r / 1024. -/
theorem cover2 (i : S8192x256.Idx) : ∃ t : Fin cfg0.N, (cfg0.win 2).flush t = true ∧ i ∈ ((cfg0.win 2).blk t).view.set := by
  have h0 : (i 0).val < 8192 := (i 0).isLt
  have h1 : (i 1).val < 256 := (i 1).isLt
  have hN : cfg0.N = 8 := N_0
  refine ⟨⟨(i 0).val / 1024, by rw [hN]; omega⟩, flush0_2 _, (mem_blk2 _ i).mpr fun a => ?_⟩
  obtain ⟨-, -, -, -, e20, e21, -⟩ := idx_facts ⟨(i 0).val / 1024, by rw [hN]; omega⟩
  match a with
  | ⟨0, _⟩ =>
    show win0_2.index _ (0 : Fin 2) * 1024 ≤ (i 0).val ∧ (i 0).val < win0_2.index _ (0 : Fin 2) * 1024 + 1024
    rw [e20]; show (i 0).val / 1024 * 1024 ≤ (i 0).val ∧ (i 0).val < (i 0).val / 1024 * 1024 + 1024; omega
  | ⟨1, _⟩ =>
    show win0_2.index _ (1 : Fin 2) * 256 ≤ (i 1).val ∧ (i 1).val < win0_2.index _ (1 : Fin 2) * 256 + 256
    rw [e21]; omega

/-- THE PRODUCT ARRAY after the region. -/
theorem final2 (c : Dev nD) : (dat0 V c).arrAt 2 cfg0.N = prodArr (V c main_arg0) (V c main_arg2) :=
  (dat0 V c).arrAt_eq_of_cover 2 _ (fun t _ => flushed2_eq V c t) cover2

/-- WHAT POINT t WRITES BACK to the statistics array is slab t of the statistics array. -/
theorem flushed3_eq (c : Dev nD) (t : Fin cfg0.N) :
    (dat0 V c).flushed 3 t
      = ((cfg0.win 3).blk t).view.read (Elt Ideal) (statsArr (prodArr (V c main_arg0) (V c main_arg2))) := by
  show (cfg0.win 3).cut (grid0.coords t) ((dat0 V c).after 3 t) = _
  rw [after0_3]
  unfold out0_3
  rw [View.canon_unit_zero hz3]
  simp only [View.ld_unit_zero (S := S1024x512) hz2, View.ld_unit_zero (S := S512x256) hz2]
  obtain ⟨-, -, -, -, -, -, e30, e31, e32⟩ := idx_facts t
  have ht := t_lt t
  funext j
  obtain ⟨u, s, q, rfl⟩ : ∃ (u : Fin 1) (s : Fin 2) (q : Fin 256), j = ix3 u s q := ⟨j 0, j 1, j 2, eq_ix3 j⟩
  show k0_pay2 (F := Ideal) (iblk0 V c 0 t) (iblk0 V c 1 t) (ix3 u s q)
    = statsArr (prodArr (V c main_arg0) (V c main_arg2)) (((cfg0.win 3).blk t).view.emb (ix3 u s q))
  have hu : u.val = 0 := by have := u.isLt; omega
  have hemb : ((cfg0.win 3).blk t).view.emb (ix3 u s q) = (ix3 (⟨t.val, ht⟩ : Fin 8) s q : S8x2x256.Idx) := by
    funext a; apply Fin.ext
    match a with
    | ⟨0, _⟩ => show win0_3.index t (0 : Fin 3) * 1 + 1 * u.val = t.val; rw [e30, hu]; omega
    | ⟨1, _⟩ => show win0_3.index t (1 : Fin 3) * 2 + 1 * s.val = s.val; rw [e31]; omega
    | ⟨2, _⟩ => show win0_3.index t (2 : Fin 3) * 256 + 1 * q.val = q.val; rw [e32]; omega
  rw [hemb, statsArr_apply]
  unfold statsAt
  match s with
  | ⟨0, _⟩ =>
    rw [if_pos rfl]
    refine (stats_sum_apply _ _ u q).trans (Finset.sum_congr rfl fun p _ => ?_)
    exact prod_blk V c t p q (blockRow ⟨t.val, ht⟩ p) rfl
  | ⟨1, _⟩ =>
    rw [if_neg Nat.one_ne_zero]
    refine (stats_sq_apply _ _ u q).trans (Finset.sum_congr rfl fun p _ => ?_)
    rw [prod_blk V c t p q (blockRow ⟨t.val, ht⟩ p) rfl]

/-- An index of the statistics array is in point t's slab iff each coordinate is in the slab's range. -/
theorem mem_blk3 (t : Fin cfg0.N) (i : S8x2x256.Idx) :
    i ∈ ((cfg0.win 3).blk t).view.set ↔ ∀ a : Fin 3, win0_3.index t a * S1x2x256.size a ≤ (i a).val ∧ (i a).val < win0_3.index t a * S1x2x256.size a + S1x2x256.size a := by
  show i ∈ ((View.whole main_v0_1).slice (win0_3.rect t)).set ↔ _
  rw [View.set_slice_whole, Rect.mem_set_unit]
  exact Iff.rfl

/-- Slab b of the statistics array is the block of point b. -/
theorem cover3 (i : S8x2x256.Idx) : ∃ t : Fin cfg0.N, (cfg0.win 3).flush t = true ∧ i ∈ ((cfg0.win 3).blk t).view.set := by
  have h0 : (i 0).val < 8 := (i 0).isLt
  have h1 : (i 1).val < 2 := (i 1).isLt
  have h2 : (i 2).val < 256 := (i 2).isLt
  have hN : cfg0.N = 8 := N_0
  refine ⟨⟨(i 0).val, by rw [hN]; omega⟩, flush0_3 _, (mem_blk3 _ i).mpr fun a => ?_⟩
  obtain ⟨-, -, -, -, -, -, e30, e31, e32⟩ := idx_facts ⟨(i 0).val, by rw [hN]; omega⟩
  match a with
  | ⟨0, _⟩ =>
    show win0_3.index _ (0 : Fin 3) * 1 ≤ (i 0).val ∧ (i 0).val < win0_3.index _ (0 : Fin 3) * 1 + 1
    rw [e30]; show (i 0).val * 1 ≤ (i 0).val ∧ (i 0).val < (i 0).val * 1 + 1; omega
  | ⟨1, _⟩ =>
    show win0_3.index _ (1 : Fin 3) * 2 ≤ (i 1).val ∧ (i 1).val < win0_3.index _ (1 : Fin 3) * 2 + 2
    rw [e31]; omega
  | ⟨2, _⟩ =>
    show win0_3.index _ (2 : Fin 3) * 256 ≤ (i 2).val ∧ (i 2).val < win0_3.index _ (2 : Fin 3) * 256 + 256
    rw [e32]; omega

/-- THE STATISTICS ARRAY after the region. -/
theorem final3 (c : Dev nD) :
    (dat0 V c).arrAt 3 cfg0.N = statsArr (prodArr (V c main_arg0) (V c main_arg2)) :=
  (dat0 V c).arrAt_eq_of_cover 3 _ (fun t _ => flushed3_eq V c t) cover3

end Cert.KernelIdeal.Stage1

end
-- ==== Proof.KRun.lean ====
/-
  The kernel program's run with its result array named.

  @main is two kernel regions one after the other. Every weakly fair execution from a memory with zero counters
  terminates without a fault, and in every final state each unscoped buffer holds what the fold through the two regions
  leaves in it: in particular the result array holds the fold's contents at its buffer, and the nine argument arrays end
  as they were launched.
-/
import proofs.«123823_g2000409341698180_pallasbulk_363_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the fold's contents, the arguments as launched. -/
theorem run_named : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       (h c _ (mem_uc main_arg5 (by decide))).trans (W2_main_arg5 m ρ c),
       (h c _ (mem_uc main_arg6 (by decide))).trans (W2_main_arg6 m ρ c),
       (h c _ (mem_uc main_arg7 (by decide))).trans (W2_main_arg7 m ρ c),
       (h c _ (mem_uc main_arg8 (by decide))).trans (W2_main_arg8 m ρ c)⟩)

end Cert.KernelIdeal.Run

end
-- ==== Proof.KValue.lean ====
/-
  The kernel program's result array after the run, as one function of the argument arrays.

  The second region has one grid point and every window's block is its whole array: the blocks it reads are the arrays
  as the region finds them, and what it writes back is the whole result array. The arrays it finds are the arguments as
  launched and the two arrays the first region left: the product array H = x · w1 and the statistics array of H. So the
  result array ends holding the second kernel's stored value at those arrays.
-/
import proofs.«123823_g2000409341698180_pallasbulk_363_2_alg».proof.Proof.Gen.KernelIdeal.Frame
import proofs.«123823_g2000409341698180_pallasbulk_363_2_alg».proof.Proof.KStage1Arrays
import proofs.«123823_g2000409341698180_pallasbulk_363_2_alg».proof.Proof.KRun
import Idealize.ShloMosaic.Lib.Pipeline.Value

noncomputable section

open scoped BigOperators

namespace Cert.KernelIdeal.Value2

open Idealize.ShloMosaic Idealize.ShloMosaic.TcCoe Idealize.SL.Sem Idealize.ShloMosaic.ValueIdx
open Cert.KernelIdeal Cert.KernelIdeal.Gen Cert.KernelIdeal.Stage1
open Idealize.ShloMosaic.Pipeline (Dat)

section Region
variable (V : (c : Dev nD) → (b : Ref sig .tc) → Buf (Elt Ideal) ((c : Thread nD τ).loc b))

/-- The printed index maps of the second region: every window's block index is zero on every axis. -/
theorem idx1_0 : ∀ t : Fin cfg1.N, ∀ a : Fin 2, win1_0.index t a = 0 := (by decide +kernel : ∀ t : Fin grid1.N, _)
theorem idx1_1 : ∀ t : Fin cfg1.N, ∀ a : Fin 3, win1_1.index t a = 0 := (by decide +kernel : ∀ t : Fin grid1.N, _)
theorem idx1_2 : ∀ t : Fin cfg1.N, ∀ a : Fin 2, win1_2.index t a = 0 := (by decide +kernel : ∀ t : Fin grid1.N, _)
theorem idx1_3 : ∀ t : Fin cfg1.N, ∀ a : Fin 2, win1_3.index t a = 0 := (by decide +kernel : ∀ t : Fin grid1.N, _)
theorem idx1_4 : ∀ t : Fin cfg1.N, ∀ a : Fin 2, win1_4.index t a = 0 := (by decide +kernel : ∀ t : Fin grid1.N, _)
theorem idx1_5 : ∀ t : Fin cfg1.N, ∀ a : Fin 2, win1_5.index t a = 0 := (by decide +kernel : ∀ t : Fin grid1.N, _)
theorem idx1_6 : ∀ t : Fin cfg1.N, ∀ a : Fin 2, win1_6.index t a = 0 := (by decide +kernel : ∀ t : Fin grid1.N, _)
theorem idx1_7 : ∀ t : Fin cfg1.N, ∀ a : Fin 2, win1_7.index t a = 0 := (by decide +kernel : ∀ t : Fin grid1.N, _)
theorem idx1_8 : ∀ t : Fin cfg1.N, ∀ a : Fin 2, win1_8.index t a = 0 := (by decide +kernel : ∀ t : Fin grid1.N, _)
theorem idx1_9 : ∀ t : Fin cfg1.N, ∀ a : Fin 2, win1_9.index t a = 0 := (by decide +kernel : ∀ t : Fin grid1.N, _)

/-- Each input block of the second region is the whole array as the region finds it. -/
theorem iblk1_0 (c : Dev nD) (t : Fin cfg1.N) : (iblk1 V c 0 t : Vec Ideal S8192x256 .f32) = (V c main_v0_0 : S8192x256.Idx → EReal) := by
  have hz' : (fun a => win1_0.index t a * main_v0_0.ty.shape.size a) = fun _ => 0 := funext fun a => by rw [idx1_0 t a, Nat.zero_mul]
  exact Memref.read_access_unit_zero (Elt Ideal) main_v0_0 hz' (fun a => by rw [congrFun hz' a]; simp) (V c main_v0_0)
theorem iblk1_1 (c : Dev nD) (t : Fin cfg1.N) : (iblk1 V c 1 t : Vec Ideal S8x2x256 .f32) = (V c main_v0_1 : S8x2x256.Idx → EReal) := by
  have hz' : (fun a => win1_1.index t a * main_v0_1.ty.shape.size a) = fun _ => 0 := funext fun a => by rw [idx1_1 t a, Nat.zero_mul]
  exact Memref.read_access_unit_zero (Elt Ideal) main_v0_1 hz' (fun a => by rw [congrFun hz' a]; simp) (V c main_v0_1)
theorem iblk1_2 (c : Dev nD) (t : Fin cfg1.N) : (iblk1 V c 2 t : Vec Ideal S2x256 .f32) = (V c main_arg3 : S2x256.Idx → EReal) := by
  have hz' : (fun a => win1_2.index t a * main_arg3.ty.shape.size a) = fun _ => 0 := funext fun a => by rw [idx1_2 t a, Nat.zero_mul]
  exact Memref.read_access_unit_zero (Elt Ideal) main_arg3 hz' (fun a => by rw [congrFun hz' a]; simp) (V c main_arg3)
theorem iblk1_3 (c : Dev nD) (t : Fin cfg1.N) : (iblk1 V c 3 t : Vec Ideal S256x64 .f32) = (V c main_arg4 : S256x64.Idx → EReal) := by
  have hz' : (fun a => win1_3.index t a * main_arg4.ty.shape.size a) = fun _ => 0 := funext fun a => by rw [idx1_3 t a, Nat.zero_mul]
  exact Memref.read_access_unit_zero (Elt Ideal) main_arg4 hz' (fun a => by rw [congrFun hz' a]; simp) (V c main_arg4)
theorem iblk1_4 (c : Dev nD) (t : Fin cfg1.N) : (iblk1 V c 4 t : Vec Ideal S2x64 .f32) = (V c main_arg5 : S2x64.Idx → EReal) := by
  have hz' : (fun a => win1_4.index t a * main_arg5.ty.shape.size a) = fun _ => 0 := funext fun a => by rw [idx1_4 t a, Nat.zero_mul]
  exact Memref.read_access_unit_zero (Elt Ideal) main_arg5 hz' (fun a => by rw [congrFun hz' a]; simp) (V c main_arg5)
theorem iblk1_5 (c : Dev nD) (t : Fin cfg1.N) : (iblk1 V c 5 t : Vec Ideal S64x128 .f32) = (V c main_arg6 : S64x128.Idx → EReal) := by
  have hz' : (fun a => win1_5.index t a * main_arg6.ty.shape.size a) = fun _ => 0 := funext fun a => by rw [idx1_5 t a, Nat.zero_mul]
  exact Memref.read_access_unit_zero (Elt Ideal) main_arg6 hz' (fun a => by rw [congrFun hz' a]; simp) (V c main_arg6)
theorem iblk1_6 (c : Dev nD) (t : Fin cfg1.N) : (iblk1 V c 6 t : Vec Ideal S8192x16 .f32) = (V c main_arg1 : S8192x16.Idx → EReal) := by
  have hz' : (fun a => win1_6.index t a * main_arg1.ty.shape.size a) = fun _ => 0 := funext fun a => by rw [idx1_6 t a, Nat.zero_mul]
  exact Memref.read_access_unit_zero (Elt Ideal) main_arg1 hz' (fun a => by rw [congrFun hz' a]; simp) (V c main_arg1)
theorem iblk1_7 (c : Dev nD) (t : Fin cfg1.N) : (iblk1 V c 7 t : Vec Ideal S16x128 .f32) = (V c main_arg7 : S16x128.Idx → EReal) := by
  have hz' : (fun a => win1_7.index t a * main_arg7.ty.shape.size a) = fun _ => 0 := funext fun a => by rw [idx1_7 t a, Nat.zero_mul]
  exact Memref.read_access_unit_zero (Elt Ideal) main_arg7 hz' (fun a => by rw [congrFun hz' a]; simp) (V c main_arg7)
theorem iblk1_8 (c : Dev nD) (t : Fin cfg1.N) : (iblk1 V c 8 t : Vec Ideal S1x128 .f32) = (V c main_arg8 : S1x128.Idx → EReal) := by
  have hz' : (fun a => win1_8.index t a * main_arg8.ty.shape.size a) = fun _ => 0 := funext fun a => by rw [idx1_8 t a, Nat.zero_mul]
  exact Memref.read_access_unit_zero (Elt Ideal) main_arg8 hz' (fun a => by rw [congrFun hz' a]; simp) (V c main_arg8)

/-- The second kernel's stored value at the arrays as the region finds them. -/
def stored (c : Dev nD) : S8192x3.Idx → EReal :=
  out1_9 (F := Ideal) (V c main_v0_0) (V c main_v0_1) (V c main_arg3) (V c main_arg4) (V c main_arg5) (V c main_arg6)
    (V c main_arg1) (V c main_arg7) (V c main_arg8)

/-- WHAT THE ONE POINT WRITES BACK is the whole stored value. -/
theorem flushed9_eq (c : Dev nD) (t : Fin cfg1.N) :
    (dat1 V c).flushed 9 t = ((cfg1.win 9).blk t).view.read (Elt Ideal) (stored V c) := by
  show (cfg1.win 9).cut (grid1.coords t) ((dat1 V c).after 9 t) = _
  rw [after1_9, iblk1_0 V c t, iblk1_1 V c t, iblk1_2 V c t, iblk1_3 V c t, iblk1_4 V c t, iblk1_5 V c t, iblk1_6 V c t,
    iblk1_7 V c t, iblk1_8 V c t]
  have hz' : (fun a => win1_9.index t a * main_v1.ty.shape.size a) = fun _ => 0 := funext fun a => by rw [idx1_9 t a, Nat.zero_mul]
  exact (Memref.read_access_unit_zero (Elt Ideal) main_v1 hz' (fun a => by rw [congrFun hz' a]; simp) (stored V c)).symm

theorem mem_blk9 (t : Fin cfg1.N) (i : S8192x3.Idx) :
    i ∈ ((cfg1.win 9).blk t).view.set ↔ ∀ a : Fin 2, win1_9.index t a * S8192x3.size a ≤ (i a).val ∧ (i a).val < win1_9.index t a * S8192x3.size a + S8192x3.size a := by
  show i ∈ ((View.whole main_v1).slice (win1_9.rect t)).set ↔ _
  rw [View.set_slice_whole, Rect.mem_set_unit]
  exact Iff.rfl

/-- The one point's block is the whole result array. -/
theorem cover9 (i : S8192x3.Idx) : ∃ t : Fin cfg1.N, (cfg1.win 9).flush t = true ∧ i ∈ ((cfg1.win 9).blk t).view.set := by
  have h0 : (i 0).val < 8192 := (i 0).isLt
  have h1 : (i 1).val < 3 := (i 1).isLt
  refine ⟨t1_0, flush1_9 _, (mem_blk9 _ i).mpr fun a => ?_⟩
  match a with
  | ⟨0, _⟩ =>
    show win1_9.index t1_0 (0 : Fin 2) * 8192 ≤ (i 0).val ∧ (i 0).val < win1_9.index t1_0 (0 : Fin 2) * 8192 + 8192
    rw [idx1_9 t1_0 0]; omega
  | ⟨1, _⟩ =>
    show win1_9.index t1_0 (1 : Fin 2) * 3 ≤ (i 1).val ∧ (i 1).val < win1_9.index t1_0 (1 : Fin 2) * 3 + 3
    rw [idx1_9 t1_0 1]; omega

/-- THE RESULT ARRAY after the second region. -/
theorem final9 (c : Dev nD) : (dat1 V c).arrAt 9 cfg1.N = stored V c :=
  (dat1 V c).arrAt_eq_of_cover 9 _ (fun t _ => flushed9_eq V c t) cover9

end Region

/-! ## Through the two regions -/

variable (m : (ℓ : Loc nD τ sig) → Buf (Elt Ideal) ℓ) (ρ : Dev nD → PrngReg)

/-- The kernel program's value: the second kernel's stored value at the product array, its statistics and the arguments. -/
def value (X : S8192x512.Idx → EReal) (OH : S8192x16.Idx → EReal) (W1 : S512x256.Idx → EReal) (BN1 : S2x256.Idx → EReal)
    (W2 : S256x64.Idx → EReal) (BN2 : S2x64.Idx → EReal) (W3A : S64x128.Idx → EReal) (W3B : S16x128.Idx → EReal)
    (B3 : S1x128.Idx → EReal) : S8192x3.Idx → EReal :=
  out1_9 (F := Ideal) (prodArr X W1) (statsArr (prodArr X W1)) BN1 W2 BN2 W3A OH W3B B3

/-- What the second region finds: the first region's two arrays, and the arguments as launched. -/
theorem V1_prod (c : Dev nD) : (V1 m ρ c main_v0_0 : S8192x256.Idx → EReal)
    = prodArr (m ((c : Thread nD τ).loc main_arg0)) (m ((c : Thread nD τ).loc main_arg2)) :=
  (W1_arr m ρ c 2).trans (final2 (V0 m ρ) c)
theorem V1_stats (c : Dev nD) : (V1 m ρ c main_v0_1 : S8x2x256.Idx → EReal)
    = statsArr (prodArr (m ((c : Thread nD τ).loc main_arg0)) (m ((c : Thread nD τ).loc main_arg2))) :=
  (W1_arr m ρ c 3).trans (final3 (V0 m ρ) c)
theorem V1_arg1 (c : Dev nD) : V1 m ρ c main_arg1 = m ((c : Thread nD τ).loc main_arg1) := W1_of_ne m ρ c main_arg1 (by decide)
theorem V1_arg3 (c : Dev nD) : V1 m ρ c main_arg3 = m ((c : Thread nD τ).loc main_arg3) := W1_of_ne m ρ c main_arg3 (by decide)
theorem V1_arg4 (c : Dev nD) : V1 m ρ c main_arg4 = m ((c : Thread nD τ).loc main_arg4) := W1_of_ne m ρ c main_arg4 (by decide)
theorem V1_arg5 (c : Dev nD) : V1 m ρ c main_arg5 = m ((c : Thread nD τ).loc main_arg5) := W1_of_ne m ρ c main_arg5 (by decide)
theorem V1_arg6 (c : Dev nD) : V1 m ρ c main_arg6 = m ((c : Thread nD τ).loc main_arg6) := W1_of_ne m ρ c main_arg6 (by decide)
theorem V1_arg7 (c : Dev nD) : V1 m ρ c main_arg7 = m ((c : Thread nD τ).loc main_arg7) := W1_of_ne m ρ c main_arg7 (by decide)
theorem V1_arg8 (c : Dev nD) : V1 m ρ c main_arg8 = m ((c : Thread nD τ).loc main_arg8) := W1_of_ne m ρ c main_arg8 (by decide)

/-- THE RESULT ARRAY after the run. -/
theorem result_eq (c : Dev nD) :
    (W2 m ρ c (Proc.devRef .tc main_v1) : S8192x3.Idx → EReal)
      = value (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  refine (W2_arr m ρ c 9).trans ((final9 (V1 m ρ) c).trans ?_)
  unfold stored value
  rw [V1_prod m ρ c, V1_stats m ρ c, V1_arg1 m ρ c, V1_arg3 m ρ c, V1_arg4 m ρ c, V1_arg5 m ρ c, V1_arg6 m ρ c, V1_arg7 m ρ c,
    V1_arg8 m ρ c]

/-- THE RUN, READ: the result array at the kernel's value of the arguments, the arguments unchanged. -/
theorem run : θ_run defs (onTc (τ := τ) (main (F := Ideal))) ⟨m, fun _ => 0, ρ⟩ (fun r => ∀ c : Dev nD,
      r.2.mem ((c.tc : Thread nD τ).loc main_v1)
        = value (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩) (Cert.KernelIdeal.Run.run_named m ρ)

end Cert.KernelIdeal.Value2

end
-- ==== Proof.LibRealSum.lean ====
/-
  Sums of real numbers inside the extended reals.

  The coercion of a finite sum of reals is the sum of the coercions. Consequently, when every factor is a real
  number, a weighted double sum may be taken in either order:
      Σ_e (Σ_k x e k · W k) · r e  =  Σ_k (Σ_e x e k · r e) · W k .
  (Over the extended reals in general this fails: multiplication does not distribute over a sum that mixes +∞ and −∞.)
-/
import Mathlib

noncomputable section

open scoped BigOperators

namespace Cert.LibRealSum

/-- An extended real that is (the coercion of) a real number. -/
def IsReal (x : EReal) : Prop := ∃ a : ℝ, x = (a : EReal)

theorem isReal_coe (a : ℝ) : IsReal (a : EReal) := ⟨a, rfl⟩
theorem isReal_zero : IsReal 0 := ⟨0, rfl⟩
theorem isReal_one : IsReal 1 := ⟨1, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert j s hj ih => rw [Finset.sum_insert hj, Finset.sum_insert hj, EReal.coe_add, ih]

theorem isReal_sum {ι : Type*} (s : Finset ι) (f : ι → EReal) (h : ∀ i ∈ s, IsReal (f i)) : IsReal (∑ i ∈ s, f i) := by
  classical
  induction s using Finset.induction_on with
  | empty => simpa using isReal_zero
  | insert j s hj ih =>
    rw [Finset.sum_insert hj]
    exact (h j (Finset.mem_insert_self j s)).add (ih fun i hi => h i (Finset.mem_insert_of_mem hi))

/-- THE LAW: with real factors, the weighted double sum in either order. -/
theorem sum_mul_sum_swap {ι κ : Type*} [Fintype κ] (s : Finset ι) (x : ι → κ → EReal) (r : ι → EReal) (W : κ → EReal)
    (hx : ∀ e k, IsReal (x e k)) (hr : ∀ e, IsReal (r e)) (hW : ∀ k, IsReal (W k)) :
    ∑ e ∈ s, (∑ k, x e k * W k) * r e = ∑ k, (∑ e ∈ s, x e k * r e) * W k := by
  classical
  choose x' hx' using hx
  choose r' hr' using hr
  choose W' hW' using hW
  simp only [hx', hr', hW', ← EReal.coe_mul, ← coe_finset_sum]
  refine congrArg _ ?_
  simp only [Finset.sum_mul]
  rw [Finset.sum_comm]
  exact Finset.sum_congr rfl fun k _ => Finset.sum_congr rfl fun e _ => by ring

end Cert.LibRealSum

end
-- ==== Proof.LibBatchNorm.lean ====
/-
  Batch normalisation over the extended reals, when every entry is a real number.

  For real entries x_1, …, x_n (n > 0), a real gain g, a real offset b and a positive real ε, put
      m  = (Σ_j x_j) / n                      the mean,
      v  = (Σ_j x_j · x_j) / n − m · m          the variance from the first two moments,
      v' = (Σ_j (x_j − m) · (x_j − m)) / n      the variance from the centred entries.
  Over ℝ, expanding the square and using Σ_j x_j = n · m gives v = v'; and v' ≥ 0, so v' + ε > 0, its square
  root is a positive real and s = g / √(v' + ε) is a real. Hence the two ways of normalising,
      x_i · s + (b − m · s)      and      (x_i − m) · s + b ,
  agree (distribute the product), and the common value is a real number.

  The division and the square root below are the ones on the extended reals with their conventions at 0, at
  the infinities and at the negatives (Ideal.div, Ideal.sqrt); on the arguments that occur here (a nonzero
  real divisor, a nonnegative real radicand) they are the real operations, which is what makes the identities
  above available. (Over the extended reals in general they fail: ∞ − ∞ and 0 · ∞ are not cancellable.)

  Also here: closure of "is a real number" under subtraction, negation, maximum, division by a nonzero real,
  the square root of a nonnegative real, and the reciprocal square root of a positive real, as they read on
  the extended reals; and the selection "if d > 0 then 1 / √(if d > 0 then d else 1) else 0" is a real.
-/
import Mathlib
import Idealize.ShloMosaic.PureOps.Ideal
import Idealize.ShloMosaic.PureOps.Ideal.Laws
import proofs.«123823_g2000409341698180_pallasbulk_363_2_alg».proof.Proof.LibRealSum

noncomputable section

open scoped BigOperators
open Idealize.ShloMosaic
open Cert.LibRealSum

namespace Cert.Lib.BatchNorm

/-! ### Closure of "is a real number" -/

theorem isReal_sub {x y : EReal} (hx : IsReal x) (hy : IsReal y) : IsReal (x - y) := by
  obtain ⟨a, rfl⟩ := hx; obtain ⟨b, rfl⟩ := hy; exact ⟨a - b, (EReal.coe_sub a b).symm⟩

theorem isReal_neg {x : EReal} (hx : IsReal x) : IsReal (-x) := by
  obtain ⟨a, rfl⟩ := hx; exact ⟨-a, (EReal.coe_neg a).symm⟩

theorem isReal_max {x y : EReal} (hx : IsReal x) (hy : IsReal y) : IsReal (max x y) := by
  obtain ⟨a, rfl⟩ := hx; obtain ⟨b, rfl⟩ := hy; exact ⟨max a b, (EReal.coe_strictMono.monotone.map_max).symm⟩

/-- The maximum of a real with 0 is a nonnegative real. -/
theorem isReal_max_zero {x : EReal} (hx : IsReal x) : IsReal (max x 0) := isReal_max hx isReal_zero

theorem isReal_ne_top {x : EReal} (hx : IsReal x) : x ≠ ⊤ := by
  obtain ⟨a, rfl⟩ := hx; exact EReal.coe_ne_top a

theorem isReal_ne_bot {x : EReal} (hx : IsReal x) : x ≠ ⊥ := by
  obtain ⟨a, rfl⟩ := hx; exact EReal.coe_ne_bot a

/-- The quotient of two reals with a nonzero divisor is the real quotient. -/
theorem div_coe_coe (a b : ℝ) (hb : b ≠ 0) : Ideal.div (a : EReal) (b : EReal) = ((a / b : ℝ) : EReal) := by
  rw [Ideal.div_coe hb, ← EReal.coe_mul, mul_one_div]

theorem isReal_div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h, EReal.coe_zero])
  exact ⟨a / b, div_coe_coe a b hb⟩

/-- The square root of a nonnegative real is the real square root. -/
theorem sqrt_coe_of_nonneg (r : ℝ) (h : 0 ≤ r) : Ideal.sqrt (r : EReal) = ((Real.sqrt r : ℝ) : EReal) := by
  rw [Ideal.sqrt_coe, if_neg (not_lt.mpr h)]

theorem isReal_sqrt {x : EReal} (hx : IsReal x) (h0 : 0 ≤ x) : IsReal (Ideal.sqrt x) := by
  obtain ⟨a, rfl⟩ := hx
  exact ⟨Real.sqrt a, sqrt_coe_of_nonneg a (by exact_mod_cast h0)⟩

/-- The square root of a positive real is a positive real. -/
theorem sqrt_pos_of_pos {x : EReal} (hx : IsReal x) (h0 : 0 < x) : IsReal (Ideal.sqrt x) ∧ 0 < Ideal.sqrt x := by
  obtain ⟨a, rfl⟩ := hx
  have ha : 0 < a := by exact_mod_cast h0
  refine ⟨⟨Real.sqrt a, sqrt_coe_of_nonneg a ha.le⟩, ?_⟩
  rw [sqrt_coe_of_nonneg a ha.le]
  exact_mod_cast Real.sqrt_pos.mpr ha

/-- 1 / √d for a positive real d is the real 1 / √d. -/
theorem one_div_sqrt_coe (d : ℝ) (hd : 0 < d) :
    Ideal.div 1 (Ideal.sqrt (d : EReal)) = ((1 / Real.sqrt d : ℝ) : EReal) := by
  rw [sqrt_coe_of_nonneg d hd.le, ← EReal.coe_one, div_coe_coe 1 _ (Real.sqrt_pos.mpr hd).ne']

theorem isReal_one_div_sqrt {x : EReal} (hx : IsReal x) (h0 : 0 < x) : IsReal (Ideal.div 1 (Ideal.sqrt x)) := by
  obtain ⟨a, rfl⟩ := hx
  exact ⟨_, one_div_sqrt_coe a (by exact_mod_cast h0)⟩

/-- g / √d for a real g and a positive real d is the real g / √d. -/
theorem div_sqrt_coe (g d : ℝ) (hd : 0 < d) :
    Ideal.div (g : EReal) (Ideal.sqrt (d : EReal)) = ((g / Real.sqrt d : ℝ) : EReal) := by
  rw [sqrt_coe_of_nonneg d hd.le, div_coe_coe g _ (Real.sqrt_pos.mpr hd).ne']

/-! ### The variance identity over ℝ -/

/-- Σ (a_j − m)² = Σ a_j² − n · m² when m is the mean; divided by n. -/
theorem var_moments_eq_centred {n : ℕ} (hn : 0 < n) (a : Fin n → ℝ) :
    (∑ j, a j * a j) / (n : ℝ) - (∑ j, a j) / (n : ℝ) * ((∑ j, a j) / (n : ℝ))
      = (∑ j, (a j - (∑ k, a k) / (n : ℝ)) * (a j - (∑ k, a k) / (n : ℝ))) / (n : ℝ) := by
  have hn' : (n : ℝ) ≠ 0 := by exact_mod_cast hn.ne'
  set m : ℝ := (∑ k, a k) / (n : ℝ) with hm
  have hA : ∑ k, a k = (n : ℝ) * m := by rw [hm]; field_simp
  have hexp : ∀ j, (a j - m) * (a j - m) = a j * a j - 2 * m * a j + m * m := fun j => by ring
  have hsum : ∑ j, (a j - m) * (a j - m) = (∑ j, a j * a j) - 2 * m * (∑ j, a j) + (n : ℝ) * (m * m) := by
    simp only [hexp, Finset.sum_add_distrib, Finset.sum_sub_distrib, ← Finset.mul_sum, Finset.sum_const,
      Finset.card_univ, Fintype.card_fin, nsmul_eq_mul]
    ring
  rw [hsum, hA]
  field_simp
  ring

theorem var_centred_nonneg {n : ℕ} (a : Fin n → ℝ) (m : ℝ) : 0 ≤ (∑ j, (a j - m) * (a j - m)) / (n : ℝ) :=
  div_nonneg (Finset.sum_nonneg fun j _ => mul_self_nonneg _) (Nat.cast_nonneg n)

/-! ### The same on the extended reals -/

section
variable {n : ℕ} (hn : 0 < n) (x : Fin n → EReal) (hx : ∀ j, IsReal (x j)) {N : EReal} (hN : N = ((n : ℝ) : EReal))
include hn hx hN

/-- The mean of real entries is the real mean. -/
theorem mean_eq (a : Fin n → ℝ) (ha : ∀ j, x j = (a j : EReal)) :
    Ideal.div (∑ j, x j) N = (((∑ j, a j) / (n : ℝ) : ℝ) : EReal) := by
  have hn' : (n : ℝ) ≠ 0 := by exact_mod_cast hn.ne'
  simp only [ha, hN, ← coe_finset_sum, div_coe_coe _ _ hn']

theorem isReal_mean : IsReal (Ideal.div (∑ j, x j) N) := by
  choose a ha using hx
  exact ⟨_, mean_eq hn x (fun j => ⟨a j, ha j⟩) hN a ha⟩

/-- THE VARIANCE IDENTITY: from the moments, and from the centred entries. -/
theorem varMoments_eq_varCentred :
    Ideal.div (∑ j, x j * x j) N - Ideal.div (∑ j, x j) N * Ideal.div (∑ j, x j) N
      = Ideal.div (∑ j, (x j - Ideal.div (∑ k, x k) N) * (x j - Ideal.div (∑ k, x k) N)) N := by
  have hn' : (n : ℝ) ≠ 0 := by exact_mod_cast hn.ne'
  choose a ha using hx
  rw [mean_eq hn x (fun j => ⟨a j, ha j⟩) hN a ha]
  simp only [ha, hN, ← EReal.coe_mul, ← EReal.coe_sub, ← coe_finset_sum, div_coe_coe _ _ hn']
  exact congrArg _ (var_moments_eq_centred hn a)

/-- The centred variance is a nonnegative real. -/
theorem varCentred_real_nonneg :
    ∃ v : ℝ, 0 ≤ v ∧
      Ideal.div (∑ j, (x j - Ideal.div (∑ k, x k) N) * (x j - Ideal.div (∑ k, x k) N)) N = (v : EReal) := by
  have hn' : (n : ℝ) ≠ 0 := by exact_mod_cast hn.ne'
  choose a ha using hx
  refine ⟨_, var_centred_nonneg a ((∑ k, a k) / (n : ℝ)), ?_⟩
  rw [mean_eq hn x (fun j => ⟨a j, ha j⟩) hN a ha]
  simp only [ha, hN, ← EReal.coe_mul, ← EReal.coe_sub, ← coe_finset_sum, div_coe_coe _ _ hn']

end

/-! ### The scale, the two normalisations, and their agreement -/

section
variable {n : ℕ} (hn : 0 < n) (x : Fin n → EReal) (hx : ∀ j, IsReal (x j)) {N g be eps : EReal}
  (hN : N = ((n : ℝ) : EReal)) (hg : IsReal g) (hbe : IsReal be) (heps : ∃ e : ℝ, 0 < e ∧ eps = (e : EReal))
include hn hx hN heps

/-- The centred variance plus ε is a positive real. -/
theorem varCentred_add_eps_pos :
    ∃ w : ℝ, 0 < w ∧
      Ideal.div (∑ j, (x j - Ideal.div (∑ k, x k) N) * (x j - Ideal.div (∑ k, x k) N)) N + eps = (w : EReal) := by
  obtain ⟨v, hv0, hv⟩ := varCentred_real_nonneg hn x hx hN
  obtain ⟨e, he0, rfl⟩ := heps
  exact ⟨v + e, by linarith, by rw [hv, ← EReal.coe_add]⟩

include hg

/-- The scale g / √(v' + ε), with v' the centred variance, is a real. -/
theorem isReal_scale :
    IsReal (Ideal.div g (Ideal.sqrt
      (Ideal.div (∑ j, (x j - Ideal.div (∑ k, x k) N) * (x j - Ideal.div (∑ k, x k) N)) N + eps))) := by
  obtain ⟨w, hw0, hw⟩ := varCentred_add_eps_pos hn x hx hN heps
  obtain ⟨g', rfl⟩ := hg
  rw [hw, div_sqrt_coe g' w hw0]
  exact ⟨_, rfl⟩

/-- The scale g / √(v + ε), with v the variance from the moments, is the same real. -/
theorem isReal_scale_moments :
    IsReal (Ideal.div g (Ideal.sqrt
      (Ideal.div (∑ j, x j * x j) N - Ideal.div (∑ j, x j) N * Ideal.div (∑ j, x j) N + eps))) := by
  rw [varMoments_eq_varCentred hn x hx hN]
  exact isReal_scale hn x hx hN hg heps

include hbe

/-- The shift b − m · s, with s the scale from the moments, is a real. -/
theorem isReal_shift_moments :
    IsReal (be - Ideal.div (∑ j, x j) N * Ideal.div g (Ideal.sqrt
      (Ideal.div (∑ j, x j * x j) N - Ideal.div (∑ j, x j) N * Ideal.div (∑ j, x j) N + eps))) :=
  isReal_sub hbe ((isReal_mean hn x hx hN).mul (isReal_scale_moments hn x hx hN hg heps))

/-- The normalised entry (x_i − m) · s + b, with s the scale from the centred variance, is a real. -/
theorem isReal_refOut (i : Fin n) :
    IsReal ((x i - Ideal.div (∑ j, x j) N) * Ideal.div g (Ideal.sqrt
      (Ideal.div (∑ j, (x j - Ideal.div (∑ k, x k) N) * (x j - Ideal.div (∑ k, x k) N)) N + eps)) + be) :=
  ((isReal_sub (hx i) (isReal_mean hn x hx hN)).mul (isReal_scale hn x hx hN hg heps)).add hbe

end

/-- Distributing the product, for real numbers: x · s + (b − m · s) = (x − m) · s + b. -/
theorem affine_eq {xi s b m : EReal} (hxi : IsReal xi) (hs : IsReal s) (hb : IsReal b) (hm : IsReal m) :
    xi * s + (b - m * s) = (xi - m) * s + b := by
  obtain ⟨xi', rfl⟩ := hxi; obtain ⟨s', rfl⟩ := hs; obtain ⟨b', rfl⟩ := hb; obtain ⟨m', rfl⟩ := hm
  simp only [← EReal.coe_mul, ← EReal.coe_sub, ← EReal.coe_add]
  exact congrArg _ (by ring)

/-- THE THEOREM. For real entries, a real gain and offset and a positive real ε, the normalisation by scale and
    shift from the moments, x_i · s + (b − m · s) with s = g / √((Σ x_j · x_j)/n − m · m + ε), is the normalisation
    of the centred entry, (x_i − m) · s' + b with s' = g / √((Σ (x_j − m) · (x_j − m))/n + ε). -/
theorem kernel_eq_ref {n : ℕ} (hn : 0 < n) (x : Fin n → EReal) (hx : ∀ j, IsReal (x j)) {N g be eps : EReal}
    (hN : N = ((n : ℝ) : EReal)) (hg : IsReal g) (hbe : IsReal be) (heps : ∃ e : ℝ, 0 < e ∧ eps = (e : EReal))
    (i : Fin n) :
    x i * Ideal.div g (Ideal.sqrt
        (Ideal.div (∑ j, x j * x j) N - Ideal.div (∑ j, x j) N * Ideal.div (∑ j, x j) N + eps))
      + (be - Ideal.div (∑ j, x j) N * Ideal.div g (Ideal.sqrt
        (Ideal.div (∑ j, x j * x j) N - Ideal.div (∑ j, x j) N * Ideal.div (∑ j, x j) N + eps)))
    = (x i - Ideal.div (∑ j, x j) N) * Ideal.div g (Ideal.sqrt
        (Ideal.div (∑ j, (x j - Ideal.div (∑ k, x k) N) * (x j - Ideal.div (∑ k, x k) N)) N + eps)) + be := by
  rw [varMoments_eq_varCentred hn x hx hN]
  exact affine_eq (hx i) (isReal_scale hn x hx hN hg heps) hbe (isReal_mean hn x hx hN)

/-! ### The guarded reciprocal square root -/

theorem cmp_ogt_zero_of_pos {d : EReal} (h : 0 < d) : Ideal.cmp .ogt d 0 = 1#1 := by
  simp [Ideal.cmp, h]

theorem cmp_ogt_zero_of_not_pos {d : EReal} (h : ¬ 0 < d) : Ideal.cmp .ogt d 0 = 0#1 := by
  simp [Ideal.cmp, h]

/-- "if d > 0 then 1 / √(if d > 0 then d else 1) else 0" for a real d is a nonnegative real: the inner
    selection is a positive real in both cases. -/
theorem guarded_rsqrt_real_nonneg {d : EReal} (hd : IsReal d) :
    ∃ r : ℝ, 0 ≤ r ∧
      Scalar.select (Ideal.cmp .ogt d 0)
        (Ideal.div 1 (Ideal.sqrt (Scalar.select (Ideal.cmp .ogt d 0) d 1))) 0 = (r : EReal) := by
  obtain ⟨a, rfl⟩ := hd
  by_cases h : (0 : EReal) < (a : EReal)
  · have ha : 0 < a := by exact_mod_cast h
    rw [cmp_ogt_zero_of_pos h]
    refine ⟨1 / Real.sqrt a, by positivity, ?_⟩
    simp only [Scalar.select, if_true]
    exact one_div_sqrt_coe a ha
  · rw [cmp_ogt_zero_of_not_pos h]
    refine ⟨0, le_refl _, ?_⟩
    simp [Scalar.select]

theorem isReal_guarded_rsqrt {d : EReal} (hd : IsReal d) :
    IsReal (Scalar.select (Ideal.cmp .ogt d 0)
      (Ideal.div 1 (Ideal.sqrt (Scalar.select (Ideal.cmp .ogt d 0) d 1))) 0) := by
  obtain ⟨r, _, hr⟩ := guarded_rsqrt_real_nonneg hd
  exact ⟨r, hr⟩

end Cert.Lib.BatchNorm

end
-- ==== Proof.LibMomentNorm.lean ====
/-
  Normalising a column of real numbers by its first two moments with a reciprocal square root, over the extended reals.

  For real entries x_1, …, x_n (n > 0), a real gain g, a real offset b and a positive real ε, put
      m = (Σ_j x_j) / n ,      q = (Σ_j x_j · x_j) / n ,      s = g · (q − m · m + ε)^(−1/2) .
  The variance q − m · m equals the mean of the squared deviations, so it is a nonnegative real; hence q − m · m + ε is a
  positive real, its reciprocal square root is a real, and so is s. For real numbers the product distributes over the
  difference, so the two arrangements
      x_i · s + (b − m · s)        and        (x_i − m) · s + b
  agree, and their common value is a real number. (Over the extended reals in general both steps fail: the reciprocal
  square root of 0 is +∞, and ∞ − ∞ does not cancel.)

  Also here: a sum over J · n consecutive positions is the sum over the J blocks of the sums over each block's n
  positions; and a product with the reciprocal 1/k of a nonzero real k is the quotient by k, on every extended real.
-/
import Mathlib
import Idealize.ShloMosaic.PureOps.Ideal
import Idealize.ShloMosaic.PureOps.Ideal.Laws
import proofs.«123823_g2000409341698180_pallasbulk_363_2_alg».proof.Proof.LibRealSum
import proofs.«123823_g2000409341698180_pallasbulk_363_2_alg».proof.Proof.LibBatchNorm

noncomputable section

open scoped BigOperators
open Idealize.ShloMosaic
open Cert.LibRealSum Cert.Lib.BatchNorm

namespace Cert.Lib.MomentNorm

/-- The reciprocal square root of a positive real is the real (√w)⁻¹. -/
theorem rsqrt_coe_of_pos (w : ℝ) (hw : 0 < w) : Ideal.rsqrt (w : EReal) = (((Real.sqrt w)⁻¹ : ℝ) : EReal) := by
  rw [Ideal.rsqrt_coe, if_neg (not_lt.mpr hw.le), if_neg hw.ne']

/-- The scale g · (v + ε)^(−1/2) as a function of the gain, the mean and the second moment. -/
def scale (eps g m q : EReal) : EReal := g * Ideal.rsqrt (q - m * m + eps)

section
variable {n : ℕ} (hn : 0 < n) (x : Fin n → EReal) (hx : ∀ j, IsReal (x j)) {N g be eps : EReal}
  (hN : N = ((n : ℝ) : EReal)) (hg : IsReal g) (hbe : IsReal be) (heps : ∃ e : ℝ, 0 < e ∧ eps = (e : EReal))
include hn hx hN heps

/-- The variance from the moments plus ε is a positive real. -/
theorem momentVar_add_eps_pos :
    ∃ w : ℝ, 0 < w ∧
      Ideal.div (∑ j, x j * x j) N - Ideal.div (∑ j, x j) N * Ideal.div (∑ j, x j) N + eps = (w : EReal) := by
  rw [varMoments_eq_varCentred hn x hx hN]
  exact varCentred_add_eps_pos hn x hx hN heps

include hg

/-- The scale is a real. -/
theorem isReal_scale : IsReal (scale eps g (Ideal.div (∑ j, x j) N) (Ideal.div (∑ j, x j * x j) N)) := by
  obtain ⟨w, hw0, hw⟩ := momentVar_add_eps_pos hn x hx hN heps
  unfold scale
  rw [hw, rsqrt_coe_of_pos w hw0]
  exact hg.mul (isReal_coe _)

include hbe

/-- THE LAW: scale-and-shift is normalise-then-scale. -/
theorem shift_eq_centred (i : Fin n) :
    x i * scale eps g (Ideal.div (∑ j, x j) N) (Ideal.div (∑ j, x j * x j) N)
        + (be - Ideal.div (∑ j, x j) N * scale eps g (Ideal.div (∑ j, x j) N) (Ideal.div (∑ j, x j * x j) N))
      = (x i - Ideal.div (∑ j, x j) N) * scale eps g (Ideal.div (∑ j, x j) N) (Ideal.div (∑ j, x j * x j) N) + be :=
  affine_eq (hx i) (isReal_scale hn x hx hN hg heps) hbe (isReal_mean hn x hx hN)

/-- The normalised entry is a real. -/
theorem isReal_centred (i : Fin n) :
    IsReal ((x i - Ideal.div (∑ j, x j) N) * scale eps g (Ideal.div (∑ j, x j) N) (Ideal.div (∑ j, x j * x j) N) + be) :=
  ((isReal_sub (hx i) (isReal_mean hn x hx hN)).mul (isReal_scale hn x hx hN hg heps)).add hbe

end

/-! ### The two arrangements, cut off below at zero -/

/-- max (h · s + (b − m · s)) 0 with s the scale. -/
def shiftCut (eps g b m q h : EReal) : EReal := max (h * scale eps g m q + (b - m * scale eps g m q)) 0

/-- max ((h − m) · s + b) 0 with s the scale. -/
def centreCut (eps g b m q h : EReal) : EReal := max ((h - m) * scale eps g m q + b) 0

section
variable {n : ℕ} (hn : 0 < n) (x : Fin n → EReal) (hx : ∀ j, IsReal (x j)) {N g be eps : EReal}
  (hN : N = ((n : ℝ) : EReal)) (hg : IsReal g) (hbe : IsReal be) (heps : ∃ e : ℝ, 0 < e ∧ eps = (e : EReal))
include hn hx hN hg hbe heps

/-- For a column of reals with its own mean and second moment, the two arrangements agree. -/
theorem shiftCut_eq_centreCut (i : Fin n) :
    shiftCut eps g be (Ideal.div (∑ j, x j) N) (Ideal.div (∑ j, x j * x j) N) (x i)
      = centreCut eps g be (Ideal.div (∑ j, x j) N) (Ideal.div (∑ j, x j * x j) N) (x i) :=
  congrArg (fun t => max t 0) (shift_eq_centred hn x hx hN hg hbe heps i)

/-- … and the value is a real. -/
theorem isReal_centreCut (i : Fin n) :
    IsReal (centreCut eps g be (Ideal.div (∑ j, x j) N) (Ideal.div (∑ j, x j * x j) N) (x i)) :=
  isReal_max (isReal_centred hn x hx hN hg hbe heps i) isReal_zero

end

/-! ### A sum cut into equal blocks -/

/-- The position b·n + p lies below J·n when b < J and p < n. -/
theorem pos_lt {J n b p : Nat} (hb : b < J) (hp : p < n) : b * n + p < J * n := by
  have h1 : (b + 1) * n ≤ J * n := Nat.mul_le_mul_right n hb
  have h2 : (b + 1) * n = b * n + n := Nat.succ_mul b n
  omega

/-- A sum over J·n positions is the sum over the J blocks of the sums over each block's n positions. -/
theorem sum_blocks {M : Type*} [AddCommMonoid M] {N : Nat} (J n : Nat) (hN : N = J * n) (f : Fin N → M) :
    ∑ b : Fin J, ∑ p : Fin n, f ⟨b.val * n + p.val, by rw [hN]; exact pos_lt b.isLt p.isLt⟩ = ∑ r : Fin N, f r := by
  subst hN
  rw [← finProdFinEquiv.sum_comp, Fintype.sum_prod_type]
  refine Finset.sum_congr rfl fun b _ => Finset.sum_congr rfl fun p _ => congrArg f (Fin.ext ?_)
  simp [finProdFinEquiv, Nat.mul_comm, Nat.add_comm]

/-! ### A reciprocal as a divisor -/

/-- The product with 1/k is the quotient by k, for a nonzero real k, on every extended real. -/
theorem mul_inv_eq_div (x : EReal) (k : ℝ) (hk : k ≠ 0) : x * ((1 / k : ℝ) : EReal) = Ideal.div x (k : EReal) :=
  (Ideal.div_coe hk x).symm

end Cert.Lib.MomentNorm

end
-- ==== Proof.LibNormRows.lean ====
/-
  The rows and arrays a kernel forms when it normalises the columns of a two-axis array, read at an index.

  For h : [R, C] over the extended reals and a divisor n, the row of column means reads Σ_r h (r, c) / n at (0, c), and
  the row of second moments reads Σ_r h (r, c) · h (r, c) / n. From a gain row g, a mean row m, a second-moment row q and
  ε, the scale row reads g · (q − m · m + ε)^(−1/2) at each column, and the shift row from an offset row b reads
  b − m · s. Two arrangements of the normalised array cut off below at z:
      max (h · s + t) z        (scale and shift rows broadcast down the rows), and
      max ((h − m) · s + b) z  (the mean row subtracted first),
  read the same expressions entry by entry, with each row taken at column c.
-/
import Mathlib
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout
import proofs.«123823_g2000409341698180_pallasbulk_363_2_alg».proof.Proof.LibColMoments
import proofs.«123823_g2000409341698180_pallasbulk_363_2_alg».proof.Proof.LibMomentNorm

noncomputable section

open scoped BigOperators

namespace Cert.Lib.NormRows

open Idealize.ShloMosaic Idealize.ShloMosaic.ValueIdx Cert.Lib.MomentNorm

variable {R C : Nat}

/-- The row of column sums divided by n. -/
def meanRow (h : FVec Ideal ⟨2, ![R, C]⟩ .f32) (n : Ideal .f32)
    (hr : (⟨2, ![R, C]⟩ : Shape).Reduces [0] (⟨1, ![C]⟩ : Shape)) (hφ : FKind.Formats .f32)
    (hacc : (0x00000000#32 : BitVec 32) = FKind.add.neutral .f32 hφ)
    (hc : (⟨1, ![C]⟩ : Shape).ShapeCasts ⟨2, ![1, C]⟩) : FVec Ideal ⟨2, ![1, C]⟩ .f32 :=
  divf (shapeCast (⟨2, ![1, C]⟩ : Shape) (multiReduction .add [0] (⟨1, ![C]⟩ : Shape) h 0x00000000#32 hr hφ hacc) hc)
    (broadcast (⟨2, ![1, C]⟩ : Shape) n)

theorem meanRow_apply (h : FVec Ideal ⟨2, ![R, C]⟩ .f32) (n : Ideal .f32) (hr) (hφ) (hacc) (hc) (u : Fin 1) (c : Fin C) :
    meanRow h n hr hφ hacc hc (ix2 u c) = Ideal.div (∑ r : Fin R, h (ix2 r c)) n :=
  congrArg (fun t => Ideal.div t n) (Cert.Lib.ColMoments.colSum_row_apply h _ hr hφ hacc hc u c)

/-- The row of column sums of squares divided by n. -/
def sqRow (h : FVec Ideal ⟨2, ![R, C]⟩ .f32) (n : Ideal .f32)
    (hr : (⟨2, ![R, C]⟩ : Shape).Reduces [0] (⟨1, ![C]⟩ : Shape)) (hφ : FKind.Formats .f32)
    (hacc : (0x00000000#32 : BitVec 32) = FKind.add.neutral .f32 hφ)
    (hc : (⟨1, ![C]⟩ : Shape).ShapeCasts ⟨2, ![1, C]⟩) : FVec Ideal ⟨2, ![1, C]⟩ .f32 :=
  divf (shapeCast (⟨2, ![1, C]⟩ : Shape) (multiReduction .add [0] (⟨1, ![C]⟩ : Shape) (mulf h h) 0x00000000#32 hr hφ hacc) hc)
    (broadcast (⟨2, ![1, C]⟩ : Shape) n)

theorem sqRow_apply (h : FVec Ideal ⟨2, ![R, C]⟩ .f32) (n : Ideal .f32) (hr) (hφ) (hacc) (hc) (u : Fin 1) (c : Fin C) :
    sqRow h n hr hφ hacc hc (ix2 u c) = Ideal.div (∑ r : Fin R, h (ix2 r c) * h (ix2 r c)) n :=
  congrArg (fun t => Ideal.div t n) (Cert.Lib.ColMoments.colSum_row_apply (mulf h h) _ hr hφ hacc hc u c)

/-- The scale row g · (q − m · m + ε)^(−1/2). -/
def scaleRow (eps : Ideal .f32) (g m q : FVec Ideal ⟨2, ![1, C]⟩ .f32) : FVec Ideal ⟨2, ![1, C]⟩ .f32 :=
  mulf g (rsqrt (addf (subf q (mulf m m)) (broadcast (⟨2, ![1, C]⟩ : Shape) eps)))

theorem scaleRow_apply (eps : Ideal .f32) (g m q : FVec Ideal ⟨2, ![1, C]⟩ .f32) (i : (⟨2, ![1, C]⟩ : Shape).Idx) :
    scaleRow eps g m q i = scale eps (g i) (m i) (q i) := rfl

/-- The shift row b − m · s. -/
def shiftRow (b m s : FVec Ideal ⟨2, ![1, C]⟩ .f32) : FVec Ideal ⟨2, ![1, C]⟩ .f32 := subf b (mulf m s)

theorem shiftRow_apply (b m s : FVec Ideal ⟨2, ![1, C]⟩ .f32) (i : (⟨2, ![1, C]⟩ : Shape).Idx) :
    shiftRow b m s i = b i - m i * s i := rfl

/-- max (h · s + t) z, the rows s and t broadcast down the rows of h. -/
def scaleShiftCut (h : FVec Ideal ⟨2, ![R, C]⟩ .f32) (s t : FVec Ideal ⟨2, ![1, C]⟩ .f32) (z : Ideal .f32)
    (hb : (⟨2, ![1, C]⟩ : Shape).Broadcasts ⟨2, ![R, C]⟩) : FVec Ideal ⟨2, ![R, C]⟩ .f32 :=
  maximumf (addf (mulf h (broadcastTo (⟨2, ![R, C]⟩ : Shape) s hb)) (broadcastTo (⟨2, ![R, C]⟩ : Shape) t hb))
    (broadcast (⟨2, ![R, C]⟩ : Shape) z)

theorem scaleShiftCut_apply (h : FVec Ideal ⟨2, ![R, C]⟩ .f32) (s t : FVec Ideal ⟨2, ![1, C]⟩ .f32) (z : Ideal .f32) (hb)
    (r : Fin R) (c : Fin C) :
    scaleShiftCut h s t z hb (ix2 r c) = max (h (ix2 r c) * s (ix2 (0 : Fin 1) c) + t (ix2 (0 : Fin 1) c)) z := by
  show max (h (ix2 r c) * broadcastTo (⟨2, ![R, C]⟩ : Shape) s hb (ix2 r c) + broadcastTo (⟨2, ![R, C]⟩ : Shape) t hb (ix2 r c)) z = _
  rw [broadcastTo_1b_ab_apply s hb r c, broadcastTo_1b_ab_apply t hb r c]

/-- max ((h − m) · s + b) z, the rows m, s and b broadcast down the rows of h. -/
def centreScaleCut (h : FVec Ideal ⟨2, ![R, C]⟩ .f32) (m s b : FVec Ideal ⟨2, ![1, C]⟩ .f32) (z : Ideal .f32)
    (hb : (⟨2, ![1, C]⟩ : Shape).Broadcasts ⟨2, ![R, C]⟩) : FVec Ideal ⟨2, ![R, C]⟩ .f32 :=
  maximumf (addf (mulf (subf h (broadcastTo (⟨2, ![R, C]⟩ : Shape) m hb)) (broadcastTo (⟨2, ![R, C]⟩ : Shape) s hb))
    (broadcastTo (⟨2, ![R, C]⟩ : Shape) b hb)) (broadcast (⟨2, ![R, C]⟩ : Shape) z)

theorem centreScaleCut_apply (h : FVec Ideal ⟨2, ![R, C]⟩ .f32) (m s b : FVec Ideal ⟨2, ![1, C]⟩ .f32) (z : Ideal .f32) (hb)
    (r : Fin R) (c : Fin C) :
    centreScaleCut h m s b z hb (ix2 r c)
      = max ((h (ix2 r c) - m (ix2 (0 : Fin 1) c)) * s (ix2 (0 : Fin 1) c) + b (ix2 (0 : Fin 1) c)) z := by
  show max ((h (ix2 r c) - broadcastTo (⟨2, ![R, C]⟩ : Shape) m hb (ix2 r c)) * broadcastTo (⟨2, ![R, C]⟩ : Shape) s hb (ix2 r c)
    + broadcastTo (⟨2, ![R, C]⟩ : Shape) b hb (ix2 r c)) z = _
  rw [broadcastTo_1b_ab_apply m hb r c, broadcastTo_1b_ab_apply s hb r c, broadcastTo_1b_ab_apply b hb r c]

/-- A row [1, C] viewed as a vector [C] and back is the row. -/
theorem row_vec_row (v : FVec Ideal ⟨2, ![1, C]⟩ .f32) (h1 : (⟨2, ![1, C]⟩ : Shape).ShapeCasts ⟨1, ![C]⟩)
    (h2 : (⟨1, ![C]⟩ : Shape).ShapeCasts ⟨2, ![1, C]⟩) :
    shapeCast (⟨2, ![1, C]⟩ : Shape) (shapeCast (⟨1, ![C]⟩ : Shape) v h1) h2 = v :=
  shapeCast_shapeCast v h1 h2

/-- Row 0 of a two-row array, cut out as [1, C]. -/
theorem row0_apply (X : FVec Ideal ⟨2, ![2, C]⟩ .f32) (h : (⟨2, ![2, C]⟩ : Shape).Slices ![0, 0] ⟨2, ![1, C]⟩) (u : Fin 1) (c : Fin C) :
    extractStridedSlice (⟨2, ![1, C]⟩ : Shape) ![0, 0] X h (ix2 u c) = X (ix2 (0 : Fin 2) c) :=
  slice2_axis0_apply 0 X h u c (0 : Fin 2) (by have := u.isLt; show 0 = 0 + u.val; omega)

/-- Row 1 of a two-row array, cut out as [1, C]. -/
theorem row1_apply (X : FVec Ideal ⟨2, ![2, C]⟩ .f32) (h : (⟨2, ![2, C]⟩ : Shape).Slices ![1, 0] ⟨2, ![1, C]⟩) (u : Fin 1) (c : Fin C) :
    extractStridedSlice (⟨2, ![1, C]⟩ : Shape) ![1, 0] X h (ix2 u c) = X (ix2 (1 : Fin 2) c) :=
  slice2_axis0_apply 1 X h u c (1 : Fin 2) (by have := u.isLt; show 1 = 1 + u.val; omega)

end Cert.Lib.NormRows

end
-- ==== Proof.Consts.lean ====
/-
  The float constants the two programs spell, as the extended reals their 32-bit patterns denote.

  0x00000000 is 0; 0x46000000 is 8192 = 2^13; 0x39000000 is 2^(-13) = 1/8192; 0x3727C5AC (the nearest 32-bit float
  to 10^(-5)) is a positive real number, and that is all that is used of it.
-/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_8192 : Ideal.ofBits .f32 0x46000000#32 = ((8192 : ℝ) : EReal) := by
  simp [Ideal.ofBits, Ideal.ieee, -EReal.coe_mul]; norm_num

theorem ofBits_inv8192 : Ideal.ofBits .f32 0x39000000#32 = ((1 / 8192 : ℝ) : EReal) := by
  simp [Ideal.ofBits, Ideal.ieee, -EReal.coe_mul]; norm_num

theorem ofBits_eps_pos : ∃ e : ℝ, 0 < e ∧ Ideal.ofBits .f32 0x3727C5AC#32 = (e : EReal) := by
  refine ⟨(2 : ℝ) ^ (-17 : ℤ) * (1 + 2606508 / 8388608), by positivity, ?_⟩
  simp [Ideal.ofBits, Ideal.ieee, -EReal.coe_mul]; norm_num

end Cert.Consts

end
-- ==== Proof.KStage2.lean ====
/-
  The second kernel's stored value, read at an index over the extended reals.

  The second kernel loads the product array h : [8192, 256], the statistics st : [8, 2, 256], gain and offset rows for
  two normalisations, three weights, the one-hot array and a bias row. With k = 2^(−13) and n = 8192:
    * M (c) = (Σ_b st (b, 0, c)) · k and Q (c) = (Σ_b st (b, 1, c)) · k are the first layer's mean and second moment;
    * a (r, c) = max (h (r, c) · s + (β − M · s)) 0 with s = γ · (Q − M · M + ε)^(−1/2) is the first activation;
    * P (r, c) = Σ_k a (r, k) · w2 (k, c) is the second layer before normalisation, with mean Σ_r P (r, c) / n and
      second moment Σ_r P (r, c)² / n;
    * the stored value at (r, j), j < 3, is the logistic function of
      (Σ_k a2 (r, k) · w3a (k, j) + Σ_k onehot (r, k) · w3b (k, j)) + bias (0, j),
      where a2 is the second activation, formed from P as a was formed from h.
  Rounding an operand to a shorter float format changes nothing over the extended reals.
-/
import proofs.«123823_g2000409341698180_pallasbulk_363_2_alg».proof.Proof.Gen.KernelIdeal.Skeleton
import proofs.«123823_g2000409341698180_pallasbulk_363_2_alg».proof.Proof.LibDotRows
import proofs.«123823_g2000409341698180_pallasbulk_363_2_alg».proof.Proof.LibColMoments
import proofs.«123823_g2000409341698180_pallasbulk_363_2_alg».proof.Proof.LibNormRows
import proofs.«123823_g2000409341698180_pallasbulk_363_2_alg».proof.Proof.Consts

noncomputable section

open scoped BigOperators

namespace Cert.KernelIdeal.Stage2

open Idealize.ShloMosaic Idealize.ShloMosaic.ValueIdx Cert.KernelIdeal Cert.KernelIdeal.Gen
open Cert.Lib.NormRows Cert.Lib.MomentNorm

/-- ε, 2^(−13) and 8192 as the programs spell them. -/
abbrev epsB : EReal := Ideal.ofBits .f32 0x3727C5AC#32
abbrev invB : EReal := Ideal.ofBits .f32 0x39000000#32
abbrev nB : EReal := Ideal.ofBits .f32 0x46000000#32

theorem dims2_plain : dot_S8192x256_S256x64_S8192x64_1_0_0_1_n_n = DotDims.plain 8192 256 64 := rfl
theorem dims3_plain : dot_S8192x64_S64x128_S8192x128_1_0_0_1_n_n = DotDims.plain 8192 64 128 := rfl
theorem dims4_plain : dot_S8192x16_S16x128_S8192x128_1_0_0_1_n_n = DotDims.plain 8192 16 128 := rfl

/-- The statistics summed over the eight blocks. -/
def totals (st : Vec Ideal S8x2x256 .f32) : FVec Ideal S2x256 .f32 :=
  multiReduction .add [0] S2x256 (shapeCast S8x2x256 st shapeCasts_S8x2x256_S8x2x256) 0x00000000#32 reduces_S8x2x256_S2x256 (.inl rfl) rfl

theorem totals_apply (st : Vec Ideal S8x2x256 .f32) (s : Fin 2) (c : Fin 256) :
    totals st (ix2 s c) = ∑ b : Fin 8, st (ix3 b s c) := by
  unfold totals
  refine (Cert.Lib.ColMoments.leadSum_apply _ _ _ _ _ s c).trans ?_
  rw [shapeCast_self]

/-- The first layer's mean row. -/
def mean1 (st : Vec Ideal S8x2x256 .f32) : FVec Ideal S1x256 .f32 :=
  mulf (extractStridedSlice S1x256 ![0, 0] (totals st) slices_S2x256_o0_0_S1x256) (broadcast S1x256 (Scalar.ofBits .f32 0x39000000#32))

theorem mean1_apply (st : Vec Ideal S8x2x256 .f32) (u : Fin 1) (c : Fin 256) :
    mean1 st (ix2 u c) = (∑ b : Fin 8, st (ix3 b (0 : Fin 2) c)) * invB := by
  show extractStridedSlice S1x256 ![0, 0] (totals st) slices_S2x256_o0_0_S1x256 (ix2 u c) * invB = _
  rw [row0_apply (totals st) slices_S2x256_o0_0_S1x256 u c, totals_apply]

/-- The first layer's second-moment row. -/
def sq1 (st : Vec Ideal S8x2x256 .f32) : FVec Ideal S1x256 .f32 :=
  mulf (extractStridedSlice S1x256 ![1, 0] (totals st) slices_S2x256_o1_0_S1x256) (broadcast S1x256 (Scalar.ofBits .f32 0x39000000#32))

theorem sq1_apply (st : Vec Ideal S8x2x256 .f32) (u : Fin 1) (c : Fin 256) :
    sq1 st (ix2 u c) = (∑ b : Fin 8, st (ix3 b (1 : Fin 2) c)) * invB := by
  show extractStridedSlice S1x256 ![1, 0] (totals st) slices_S2x256_o1_0_S1x256 (ix2 u c) * invB = _
  rw [row1_apply (totals st) slices_S2x256_o1_0_S1x256 u c, totals_apply]

/-- The first activation. -/
def act1 (st : Vec Ideal S8x2x256 .f32) (g1 b1 : Vec Ideal S1x256 .f32) (h : Vec Ideal S8192x256 .f32) : FVec Ideal S8192x256 .f32 :=
  scaleShiftCut (shapeCast S8192x256 h shapeCasts_S8192x256_S8192x256)
    (scaleRow (Scalar.ofBits .f32 0x3727C5AC#32) g1 (mean1 st) (sq1 st))
    (shiftRow b1 (mean1 st) (scaleRow (Scalar.ofBits .f32 0x3727C5AC#32) g1 (mean1 st) (sq1 st)))
    (Scalar.ofBits .f32 0x00000000#32) broadcasts_S1x256_S8192x256

theorem act1_apply (st : Vec Ideal S8x2x256 .f32) (g1 b1 : Vec Ideal S1x256 .f32) (h : Vec Ideal S8192x256 .f32)
    (r : Fin 8192) (c : Fin 256) :
    act1 st g1 b1 h (ix2 r c)
      = shiftCut epsB (g1 (ix2 (0 : Fin 1) c)) (b1 (ix2 (0 : Fin 1) c))
          ((∑ b : Fin 8, st (ix3 b (0 : Fin 2) c)) * invB) ((∑ b : Fin 8, st (ix3 b (1 : Fin 2) c)) * invB) (h (ix2 r c)) := by
  unfold act1
  rw [scaleShiftCut_apply, shapeCast_self, shiftRow_apply, scaleRow_apply, mean1_apply, sq1_apply]
  show max _ (Ideal.ofBits .f32 0x00000000#32) = _
  rw [Cert.Consts.ofBits_zero]
  rfl

/-- The second layer before normalisation is the product of the first activation with the second weight. -/
theorem pay2_eq (st : Vec Ideal S8x2x256 .f32) (g1 b1 : Vec Ideal S1x256 .f32) (h : Vec Ideal S8192x256 .f32) (w2 : Vec Ideal S256x64 .f32) :
    k1_pay2 (F := Ideal) st g1 b1 h w2
      = matmul dot_S8192x256_S256x64_S8192x64_1_0_0_1_n_n none (truncf .bf16 (act1 st g1 b1 h) bitsLt_bf16_f32)
          (truncf .bf16 w2 bitsLt_bf16_f32) (constant S8192x64 .f32 0x00000000#32) := rfl

theorem pay2_apply (st : Vec Ideal S8x2x256 .f32) (g1 b1 : Vec Ideal S1x256 .f32) (h : Vec Ideal S8192x256 .f32) (w2 : Vec Ideal S256x64 .f32)
    (r : Fin 8192) (c : Fin 64) :
    k1_pay2 (F := Ideal) st g1 b1 h w2 (ix2 r c) = ∑ k : Fin 256, act1 st g1 b1 h (ix2 r k) * w2 (ix2 k c) := by
  rw [pay2_eq, dims2_plain]
  exact Cert.Lib.DotRows.matmul_plain_apply _ _ r c

/-- The second layer's mean row. -/
theorem pay3_eq (st : Vec Ideal S8x2x256 .f32) (g1 b1 : Vec Ideal S1x256 .f32) (h : Vec Ideal S8192x256 .f32) (w2 : Vec Ideal S256x64 .f32) :
    k1_pay3 (F := Ideal) st g1 b1 h w2
      = meanRow (k1_pay2 (F := Ideal) st g1 b1 h w2) (Scalar.ofBits .f32 0x46000000#32) reduces_S8192x64_S64 (.inl rfl) rfl shapeCasts_S64_S1x64 := rfl

theorem pay3_apply (st : Vec Ideal S8x2x256 .f32) (g1 b1 : Vec Ideal S1x256 .f32) (h : Vec Ideal S8192x256 .f32) (w2 : Vec Ideal S256x64 .f32)
    (u : Fin 1) (c : Fin 64) :
    k1_pay3 (F := Ideal) st g1 b1 h w2 (ix2 u c) = Ideal.div (∑ r : Fin 8192, k1_pay2 (F := Ideal) st g1 b1 h w2 (ix2 r c)) nB := by
  rw [pay3_eq]
  exact meanRow_apply _ _ _ _ _ _ u c

/-- The second layer's column sums of squares, as one row. -/
theorem pay4_apply (st : Vec Ideal S8x2x256 .f32) (g1 b1 : Vec Ideal S1x256 .f32) (h : Vec Ideal S8192x256 .f32) (w2 : Vec Ideal S256x64 .f32)
    (u : Fin 1) (c : Fin 64) :
    k1_pay4 (F := Ideal) st g1 b1 h w2 (ix2 u c)
      = ∑ r : Fin 8192, k1_pay2 (F := Ideal) st g1 b1 h w2 (ix2 r c) * k1_pay2 (F := Ideal) st g1 b1 h w2 (ix2 r c) := by
  unfold k1_pay4
  exact Cert.Lib.ColMoments.colSum_row_apply (mulf (k1_pay2 (F := Ideal) st g1 b1 h w2) (k1_pay2 (F := Ideal) st g1 b1 h w2)) _ _ _ _ _ u c

/-- The second activation, from the second layer P, its mean row m and its row of sums of squares qs. -/
def act2 (P : FVec Ideal S8192x64 .f32) (m qs : FVec Ideal S1x64 .f32) (n : Ideal .f32) (g2 b2 : Vec Ideal S1x64 .f32) : FVec Ideal S8192x64 .f32 :=
  scaleShiftCut P
    (scaleRow (Scalar.ofBits .f32 0x3727C5AC#32) g2 m (divf qs (broadcast S1x64 n)))
    (shiftRow b2 m (scaleRow (Scalar.ofBits .f32 0x3727C5AC#32) g2 m (divf qs (broadcast S1x64 n))))
    (Scalar.ofBits .f32 0x00000000#32) broadcasts_S1x64_S8192x64

theorem act2_apply (P : FVec Ideal S8192x64 .f32) (m qs : FVec Ideal S1x64 .f32) (n : Ideal .f32) (g2 b2 : Vec Ideal S1x64 .f32)
    (r : Fin 8192) (c : Fin 64) :
    act2 P m qs n g2 b2 (ix2 r c)
      = shiftCut epsB (g2 (ix2 (0 : Fin 1) c)) (b2 (ix2 (0 : Fin 1) c)) (m (ix2 (0 : Fin 1) c))
          (Ideal.div (qs (ix2 (0 : Fin 1) c)) n) (P (ix2 r c)) := by
  unfold act2
  rw [scaleShiftCut_apply, shiftRow_apply, scaleRow_apply]
  show max _ (Ideal.ofBits .f32 0x00000000#32) = _
  rw [Cert.Consts.ofBits_zero]
  rfl

/-- The stored value: the logistic function of the three lanes kept of the sum of the two products and the bias row. -/
theorem pay1_eq (P : FVec Ideal S8192x64 .f32) (m qs : FVec Ideal S1x64 .f32) (n : Ideal .f32) (g2 b2 : Vec Ideal S1x64 .f32)
    (w3a : Vec Ideal S64x128 .f32) (oh : Vec Ideal S8192x16 .f32) (w3b : Vec Ideal S16x128 .f32) (b3 : Vec Ideal S1x128 .f32) :
    k1_pay1 (F := Ideal) P m qs n g2 b2 w3a oh w3b b3
      = logistic (extractStridedSlice S8192x3 ![0, 0]
          (addf (addf
            (matmul dot_S8192x64_S64x128_S8192x128_1_0_0_1_n_n none (truncf .bf16 (act2 P m qs n g2 b2) bitsLt_bf16_f32)
              (truncf .bf16 w3a bitsLt_bf16_f32) (constant S8192x128 .f32 0x00000000#32))
            (matmul dot_S8192x16_S16x128_S8192x128_1_0_0_1_n_n none (truncf .bf16 oh bitsLt_bf16_f32)
              (truncf .bf16 w3b bitsLt_bf16_f32) (constant S8192x128 .f32 0x00000000#32)))
            (broadcastTo S8192x128 b3 broadcasts_S1x128_S8192x128))
          slices_S8192x128_o0_0_S8192x3) := rfl

/-- Lane j < 3 among the 128 lanes. -/
def lane (j : Fin 3) : Fin 128 := ⟨j.val, by have := j.isLt; omega⟩

theorem pay1_apply (P : FVec Ideal S8192x64 .f32) (m qs : FVec Ideal S1x64 .f32) (n : Ideal .f32) (g2 b2 : Vec Ideal S1x64 .f32)
    (w3a : Vec Ideal S64x128 .f32) (oh : Vec Ideal S8192x16 .f32) (w3b : Vec Ideal S16x128 .f32) (b3 : Vec Ideal S1x128 .f32)
    (r : Fin 8192) (j : Fin 3) :
    k1_pay1 (F := Ideal) P m qs n g2 b2 w3a oh w3b b3 (ix2 r j)
      = Ideal.logistic (((∑ k : Fin 64, act2 P m qs n g2 b2 (ix2 r k) * w3a (ix2 k (lane j)))
          + (∑ k : Fin 16, oh (ix2 r k) * w3b (ix2 k (lane j)))) + b3 (ix2 (0 : Fin 1) (lane j))) := by
  rw [pay1_eq]
  change Ideal.logistic _ = Ideal.logistic _
  refine congrArg Ideal.logistic ?_
  refine (slice2_axis1_apply 0 _ slices_S8192x128_o0_0_S8192x3 r j (lane j) (by show j.val = 0 + j.val; omega)).trans ?_
  change (((_ : EReal) + _) + _) = _
  refine congrArg₂ (· + ·) (congrArg₂ (· + ·) ?_ ?_) ?_
  · rw [dims3_plain]; exact Cert.Lib.DotRows.matmul_plain_apply _ _ r (lane j)
  · rw [dims4_plain]; exact Cert.Lib.DotRows.matmul_plain_apply _ _ r (lane j)
  · exact broadcastTo_1b_ab_apply b3 broadcasts_S1x128_S8192x128 r (lane j)

end Cert.KernelIdeal.Stage2

end
-- ==== Proof.LibRowLoad.lean ====
/-
  A load of one row of a two-row array, read at an index.

  A buffer whose contents read X : [2, C], loaded through the unit-stride rectangle of one row and C columns that starts
  at row o (o = 0 or 1), reads X (o, c) at (0, c).
-/
import Idealize.ShloMosaic.Lib.Pipeline.FrameBody
import Idealize.ShloMosaic.Lib.ValueIdx

noncomputable section

namespace Cert.Lib.RowLoad

open Idealize.ShloMosaic Idealize.ShloMosaic.ValueIdx

variable {C : Nat} {Val : EltTy → Type} {e : EltTy}

theorem ld_row_apply (X : (⟨2, ![2, C]⟩ : Shape).Idx → Val e) (o : Nat)
    (inb : ∀ a, (![o, 0] : Fin 2 → Nat) a + (⟨2, ![1, C]⟩ : Shape).size a ≤ (⟨2, ![2, C]⟩ : Shape).size a)
    (u : Fin 1) (c : Fin C) (k : Fin 2) (hk : k.val = o) :
    View.ld X (Rect.unit (s := (⟨2, ![2, C]⟩ : Shape)) ![o, 0] (⟨2, ![1, C]⟩ : Shape).size inb) (ix2 u c) = X (ix2 k c) := by
  show X _ = X _
  refine congrArg X (funext fun a => Fin.ext ?_)
  have hu : u.val = 0 := by have := u.isLt; omega
  match a with
  | ⟨0, _⟩ => show o + 1 * u.val = k.val; omega
  | ⟨1, _⟩ => show 0 + 1 * c.val = c.val; omega

end Cert.Lib.RowLoad

end
-- ==== Proof.Net.lean ====
/-
  The network both programs compute, in its two arrangements, over the extended reals.

  From an input x : [8192, 512], a one-hot array, three weights, two [2, C] arrays of gains (row 0) and offsets (row 1)
  and a bias row: a linear layer, a normalisation of each column by its mean and second moment over the 8192 rows
  followed by a cut-off at zero, a second linear layer, a second such normalisation, and the logistic function of a
  third linear layer plus a linear function of the one-hot array plus the bias.

  The reference normalises a column h as max ((h − m) · s + β) 0 with m = Σ h / 8192, q = Σ h² / 8192 and
  s = γ · (q − m · m + ε)^(−1/2). The kernel normalises it as max (h · s + (β − m · s)) 0, takes the first layer's m and q
  as the sums of eight block sums times 2^(−13), and adds the last three terms in another grouping. For real inputs
  the two are one function: the block sums add up to the whole sums (a sum may be regrouped), times 2^(−13) is the
  quotient by 8192 = 2^13, the two arrangements of the normalisation agree for a column of reals (which keeps every
  layer real), and addition is associative.
-/
import Mathlib
import Idealize.ShloMosaic.PureOps.Ideal
import Idealize.ShloMosaic.Lib.ValueIdx
import proofs.«123823_g2000409341698180_pallasbulk_363_2_alg».proof.Proof.LibRealSum
import proofs.«123823_g2000409341698180_pallasbulk_363_2_alg».proof.Proof.LibBatchNorm
import proofs.«123823_g2000409341698180_pallasbulk_363_2_alg».proof.Proof.LibMomentNorm
import proofs.«123823_g2000409341698180_pallasbulk_363_2_alg».proof.Proof.Consts

noncomputable section

open scoped BigOperators

namespace Cert.Net

open Idealize.ShloMosaic Idealize.ShloMosaic.ValueIdx
open Cert.LibRealSum Cert.Lib.BatchNorm Cert.Lib.MomentNorm

/-- ε, 2^(−13) and 8192 as the programs spell them. -/
abbrev epsB : EReal := Ideal.ofBits .f32 0x3727C5AC#32
abbrev invB : EReal := Ideal.ofBits .f32 0x39000000#32
abbrev nB : EReal := Ideal.ofBits .f32 0x46000000#32

theorem nB_eq : nB = (((8192 : ℕ) : ℝ) : EReal) := by
  show Ideal.ofBits .f32 0x46000000#32 = _
  rw [Cert.Consts.ofBits_8192]; norm_num

/-- A two-axis array of extended reals. -/
abbrev Arr (a b : ℕ) : Type := (⟨2, ![a, b]⟩ : Shape).Idx → EReal

variable {K C : ℕ}

/-- A linear layer: (a · W) (r, c) = Σ_k a (r, k) · W (k, c). -/
def lin (a : Fin 8192 → Fin K → EReal) (W : Arr K C) (r : Fin 8192) (c : Fin C) : EReal := ∑ k : Fin K, a r k * W (ix2 k c)

theorem isReal_lin {a : Fin 8192 → Fin K → EReal} {W : Arr K C} (ha : ∀ r k, IsReal (a r k)) (hW : ∀ i, IsReal (W i))
    (r : Fin 8192) (c : Fin C) : IsReal (lin a W r c) :=
  isReal_sum _ _ fun k _ => (ha r k).mul (hW _)

/-- A column's mean and second moment over the 8192 rows. -/
def colMean (h : Fin 8192 → Fin C → EReal) (c : Fin C) : EReal := Ideal.div (∑ r : Fin 8192, h r c) nB
def colSq (h : Fin 8192 → Fin C → EReal) (c : Fin C) : EReal := Ideal.div (∑ r : Fin 8192, h r c * h r c) nB

/-- The reference's normalisation and cut-off. -/
def actR (BN : Arr 2 C) (h : Fin 8192 → Fin C → EReal) (r : Fin 8192) (c : Fin C) : EReal :=
  centreCut epsB (BN (ix2 (0 : Fin 2) c)) (BN (ix2 (1 : Fin 2) c)) (colMean h c) (colSq h c) (h r c)

/-- The kernel's, from a given mean m and second moment q. -/
def actK (BN : Arr 2 C) (m q : Fin C → EReal) (h : Fin 8192 → Fin C → EReal) (r : Fin 8192) (c : Fin C) : EReal :=
  shiftCut epsB (BN (ix2 (0 : Fin 2) c)) (BN (ix2 (1 : Fin 2) c)) (m c) (q c) (h r c)

theorem actK_eq_actR (BN : Arr 2 C) (h : Fin 8192 → Fin C → EReal) (hBN : ∀ i, IsReal (BN i)) (hh : ∀ r c, IsReal (h r c))
    (r : Fin 8192) (c : Fin C) : actK BN (colMean h) (colSq h) h r c = actR BN h r c :=
  shiftCut_eq_centreCut (n := 8192) (by norm_num) (fun r => h r c) (fun r => hh r c) nB_eq (hBN _) (hBN _)
    Cert.Consts.ofBits_eps_pos r

theorem isReal_actR (BN : Arr 2 C) (h : Fin 8192 → Fin C → EReal) (hBN : ∀ i, IsReal (BN i)) (hh : ∀ r c, IsReal (h r c))
    (r : Fin 8192) (c : Fin C) : IsReal (actR BN h r c) :=
  isReal_centreCut (n := 8192) (by norm_num) (fun r => h r c) (fun r => hh r c) nB_eq (hBN _) (hBN _)
    Cert.Consts.ofBits_eps_pos r

/-- Row 1024·b + p. -/
def blockRow (b : Fin 8) (p : Fin 1024) : Fin 8192 := ⟨b.val * 1024 + p.val, by have := b.isLt; have := p.isLt; omega⟩

/-- The mean and second moment as the kernel forms them: eight block sums added, times 2^(−13). -/
def blockMean (h : Fin 8192 → Fin C → EReal) (c : Fin C) : EReal :=
  (∑ b : Fin 8, ∑ p : Fin 1024, h (blockRow b p) c) * invB
def blockSq (h : Fin 8192 → Fin C → EReal) (c : Fin C) : EReal :=
  (∑ b : Fin 8, ∑ p : Fin 1024, h (blockRow b p) c * h (blockRow b p) c) * invB

theorem mul_invB (x : EReal) : x * invB = Ideal.div x nB := by
  show x * Ideal.ofBits .f32 0x39000000#32 = Ideal.div x (Ideal.ofBits .f32 0x46000000#32)
  rw [Cert.Consts.ofBits_inv8192, Cert.Consts.ofBits_8192]
  exact mul_inv_eq_div x 8192 (by norm_num)

theorem blockMean_eq (h : Fin 8192 → Fin C → EReal) : blockMean h = colMean h := by
  funext c
  unfold blockMean colMean
  rw [mul_invB]
  exact congrArg (fun t => Ideal.div t nB) (sum_blocks 8 1024 rfl fun r => h r c)

theorem blockSq_eq (h : Fin 8192 → Fin C → EReal) : blockSq h = colSq h := by
  funext c
  unfold blockSq colSq
  rw [mul_invB]
  exact congrArg (fun t => Ideal.div t nB) (sum_blocks 8 1024 rfl fun r => h r c * h r c)

section
variable (X : Arr 8192 512) (OH : Arr 8192 16) (W1 : Arr 512 256) (BN1 : Arr 2 256) (W2 : Arr 256 64) (BN2 : Arr 2 64)
  (W3A : Arr 64 128) (W3B : Arr 16 128) (B3 : Arr 1 128)

/-- The reference's network at row r and lane c. -/
def refNet (r : Fin 8192) (c : Fin 128) : EReal :=
  Ideal.logistic (lin (actR BN2 (lin (actR BN1 (lin (fun r k => X (ix2 r k)) W1)) W2)) W3A r c
    + (lin (fun r k => OH (ix2 r k)) W3B r c + B3 (ix2 (0 : Fin 1) c)))

/-- The kernel's second layer before normalisation. -/
def kerP : Fin 8192 → Fin 64 → EReal :=
  lin (actK BN1 (blockMean (lin (fun r k => X (ix2 r k)) W1)) (blockSq (lin (fun r k => X (ix2 r k)) W1))
    (lin (fun r k => X (ix2 r k)) W1)) W2

/-- The kernel's network at row r and lane c. -/
def kerNet (r : Fin 8192) (c : Fin 128) : EReal :=
  Ideal.logistic ((lin (actK BN2 (colMean (kerP X W1 BN1 W2)) (colSq (kerP X W1 BN1 W2)) (kerP X W1 BN1 W2)) W3A r c
    + lin (fun r k => OH (ix2 r k)) W3B r c) + B3 (ix2 (0 : Fin 1) c))

/-- THE BRIDGE: for real inputs the two networks are one function. -/
theorem kerNet_eq_refNet (hX : ∀ i, IsReal (X i)) (hW1 : ∀ i, IsReal (W1 i)) (hBN1 : ∀ i, IsReal (BN1 i))
    (hW2 : ∀ i, IsReal (W2 i)) (hBN2 : ∀ i, IsReal (BN2 i)) (r : Fin 8192) (c : Fin 128) :
    kerNet X OH W1 BN1 W2 BN2 W3A W3B B3 r c = refNet X OH W1 BN1 W2 BN2 W3A W3B B3 r c := by
  have hH : ∀ r c, IsReal (lin (fun r k => X (ix2 r k)) W1 r c) := isReal_lin (fun r k => hX _) hW1
  have e1 : actK BN1 (blockMean (lin (fun r k => X (ix2 r k)) W1)) (blockSq (lin (fun r k => X (ix2 r k)) W1))
      (lin (fun r k => X (ix2 r k)) W1) = actR BN1 (lin (fun r k => X (ix2 r k)) W1) := by
    rw [blockMean_eq, blockSq_eq]
    exact funext fun r => funext fun c => actK_eq_actR BN1 _ hBN1 hH r c
  have eP : kerP X W1 BN1 W2 = lin (actR BN1 (lin (fun r k => X (ix2 r k)) W1)) W2 := by
    unfold kerP; rw [e1]
  have hP : ∀ r c, IsReal (lin (actR BN1 (lin (fun r k => X (ix2 r k)) W1)) W2 r c) :=
    isReal_lin (fun r k => isReal_actR BN1 _ hBN1 hH r k) hW2
  unfold kerNet refNet
  rw [eP, show actK BN2 (colMean (lin (actR BN1 (lin (fun r k => X (ix2 r k)) W1)) W2))
      (colSq (lin (actR BN1 (lin (fun r k => X (ix2 r k)) W1)) W2)) (lin (actR BN1 (lin (fun r k => X (ix2 r k)) W1)) W2)
      = actR BN2 (lin (actR BN1 (lin (fun r k => X (ix2 r k)) W1)) W2) from
    funext fun r => funext fun c => actK_eq_actR BN2 _ hBN2 hP r c, add_assoc]

end

end Cert.Net

end
-- ==== Proof.KIndex.lean ====
/-
  The kernel program's value, entry by entry, is the kernel's arrangement of the network.

  At (r, j), j < 3: the second kernel's store at the product array H = x · w1 and its statistics is the logistic function
  of the three added terms at lane j, with the second activation formed from the second layer P, and P formed from the
  first activation of H whose mean and second moment are the eight block sums of H (of its squares) added, times 2^(−13).
-/
import proofs.«123823_g2000409341698180_pallasbulk_363_2_alg».proof.Proof.KValue
import proofs.«123823_g2000409341698180_pallasbulk_363_2_alg».proof.Proof.KStage2
import proofs.«123823_g2000409341698180_pallasbulk_363_2_alg».proof.Proof.LibRowLoad
import proofs.«123823_g2000409341698180_pallasbulk_363_2_alg».proof.Proof.Net

noncomputable section

open scoped BigOperators

namespace Cert.KernelIdeal.Index

open Idealize.ShloMosaic Idealize.ShloMosaic.ValueIdx
open Cert.KernelIdeal Cert.KernelIdeal.Gen Cert.KernelIdeal.Stage1 Cert.KernelIdeal.Stage2 Cert.KernelIdeal.Value2
open Cert.Lib.MomentNorm Cert.Lib.RowLoad

theorem statsArr_zero (H : S8192x256.Idx → EReal) (b : Fin 8) (c : Fin 256) :
    statsArr H (ix3 b (0 : Fin 2) c) = ∑ p : Fin 1024, H (ix2 (blockRow b p) c) := by
  rw [statsArr_apply]; unfold statsAt; exact if_pos rfl

theorem statsArr_one (H : S8192x256.Idx → EReal) (b : Fin 8) (c : Fin 256) :
    statsArr H (ix3 b (1 : Fin 2) c) = ∑ p : Fin 1024, H (ix2 (blockRow b p) c) * H (ix2 (blockRow b p) c) := by
  rw [statsArr_apply]; unfold statsAt; exact if_neg Nat.one_ne_zero

section
variable (X : S8192x512.Idx → EReal) (OH : S8192x16.Idx → EReal) (W1 : S512x256.Idx → EReal) (BN1 : S2x256.Idx → EReal)
  (W2 : S256x64.Idx → EReal) (BN2 : S2x64.Idx → EReal) (W3A : S64x128.Idx → EReal) (W3B : S16x128.Idx → EReal)
  (B3 : S1x128.Idx → EReal)

/-- The product array is the network's first layer. -/
theorem prod_eq (r : Fin 8192) (c : Fin 256) : prodArr X W1 (ix2 r c) = Cert.Net.lin (fun r k => X (ix2 r k)) W1 r c := rfl

/-- The statistics' first rows added, times 2^(−13), are the network's block mean. -/
theorem mean_eq (c : Fin 256) :
    (∑ b : Fin 8, statsArr (prodArr X W1) (ix3 b (0 : Fin 2) c)) * Stage2.invB
      = Cert.Net.blockMean (Cert.Net.lin (fun r k => X (ix2 r k)) W1) c := by
  unfold Cert.Net.blockMean
  refine congrArg (fun t => t * Stage2.invB) (Finset.sum_congr rfl fun b _ => ?_)
  rw [statsArr_zero]
  rfl

/-- The statistics' second rows added, times 2^(−13), are the network's block second moment. -/
theorem sq_eq (c : Fin 256) :
    (∑ b : Fin 8, statsArr (prodArr X W1) (ix3 b (1 : Fin 2) c)) * Stage2.invB
      = Cert.Net.blockSq (Cert.Net.lin (fun r k => X (ix2 r k)) W1) c := by
  unfold Cert.Net.blockSq
  refine congrArg (fun t => t * Stage2.invB) (Finset.sum_congr rfl fun b _ => ?_)
  rw [statsArr_one]
  rfl

/-- The second layer the kernel forms is the network's. -/
theorem layer2_eq (r : Fin 8192) (k : Fin 64) :
    k1_pay2 (F := Ideal) (statsArr (prodArr X W1)) (View.ld BN1 r1_1) (View.ld BN1 r1_2) (prodArr X W1) W2 (ix2 r k)
      = Cert.Net.kerP X W1 BN1 W2 r k := by
  rw [pay2_apply]
  show _ = ∑ k' : Fin 256, _ * W2 (ix2 k' k)
  refine Finset.sum_congr rfl fun k' _ => congrArg (fun t => t * W2 (ix2 k' k)) ?_
  have hg : View.ld (Val := Elt Ideal) (e' := .f32) BN1 r1_1 (ix2 (0 : Fin 1) k') = BN1 (ix2 (0 : Fin 2) k') :=
    ld_row_apply (Val := Elt Ideal) (e := .f32) BN1 0 inb_S2x256_S1x256_0_0 (0 : Fin 1) k' (0 : Fin 2) rfl
  have hb : View.ld (Val := Elt Ideal) (e' := .f32) BN1 r1_2 (ix2 (0 : Fin 1) k') = BN1 (ix2 (1 : Fin 2) k') :=
    ld_row_apply (Val := Elt Ideal) (e := .f32) BN1 1 inb_S2x256_S1x256_1_0 (0 : Fin 1) k' (1 : Fin 2) rfl
  rw [act1_apply, mean_eq, sq_eq, prod_eq, hg, hb]
  rfl

/-- THE KERNEL'S VALUE at (r, j) is the kernel's arrangement of the network at row r, lane j. -/
theorem value_apply (r : Fin 8192) (j : Fin 3) :
    value X OH W1 BN1 W2 BN2 W3A W3B B3 (ix2 r j) = Cert.Net.kerNet X OH W1 BN1 W2 BN2 W3A W3B B3 r (lane j) := by
  unfold value out1_9
  rw [View.canon_unit_zero hz2]
  simp only [View.ld_unit_zero (S := S8x2x256) hz3, View.ld_unit_zero (S := S8192x256) hz2, View.ld_unit_zero (S := S256x64) hz2,
    View.ld_unit_zero (S := S64x128) hz2, View.ld_unit_zero (S := S8192x16) hz2, View.ld_unit_zero (S := S16x128) hz2,
    View.ld_unit_zero (S := S1x128) hz2]
  rw [pay1_apply]
  unfold Cert.Net.kerNet
  refine congrArg Ideal.logistic (congrArg₂ (· + ·) (congrArg₂ (· + ·) ?_ rfl) rfl)
  show _ = ∑ k : Fin 64, _ * W3A (ix2 k (lane j))
  refine Finset.sum_congr rfl fun k _ => congrArg (fun t => t * W3A (ix2 k (lane j))) ?_
  have hg : View.ld (Val := Elt Ideal) (e' := .f32) BN2 r1_5 (ix2 (0 : Fin 1) k) = BN2 (ix2 (0 : Fin 2) k) :=
    ld_row_apply (Val := Elt Ideal) (e := .f32) BN2 0 inb_S2x64_S1x64_0_0 (0 : Fin 1) k (0 : Fin 2) rfl
  have hb : View.ld (Val := Elt Ideal) (e' := .f32) BN2 r1_6 (ix2 (0 : Fin 1) k) = BN2 (ix2 (1 : Fin 2) k) :=
    ld_row_apply (Val := Elt Ideal) (e := .f32) BN2 1 inb_S2x64_S1x64_1_0 (0 : Fin 1) k (1 : Fin 2) rfl
  rw [act2_apply, pay3_apply, pay4_apply, hg, hb]
  simp only [layer2_eq]
  rfl

end

end Cert.KernelIdeal.Index

end
-- ==== Proof.RValue.lean ====
/-
  The reference program's result array after the run, as one function of the argument arrays.

  Before its one kernel the host forms the additive term cb = onehot · w3b + bias row (broadcast down the rows); the
  kernel has one grid point and every window's block is its whole array, so it reads the arguments and cb as they are
  and writes back its whole stored value [8192, 128]; after it the host keeps lanes 0 … 2 of every row.
-/
import proofs.«123823_g2000409341698180_pallasbulk_363_2_alg».proof.Proof.Gen.ReferenceIdeal.Frame
import Idealize.ShloMosaic.Lib.Pipeline.Value
import Idealize.ShloMosaic.Lib.StableHlo.Run
import Idealize.ShloMosaic.Lib.ValueIdx

noncomputable section

open scoped BigOperators

namespace Cert.ReferenceIdeal.Value2

open Idealize.ShloMosaic Idealize.ShloMosaic.TcCoe Idealize.SL.Sem Idealize.ShloMosaic.ValueIdx
open Cert.ReferenceIdeal Cert.ReferenceIdeal.Gen
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl

/-- The additive term the host forms before the kernel. -/
def classBias (OH : S8192x16.Idx → EReal) (W3B : S16x128.Idx → EReal) (B3 : S1x128.Idx → EReal) : S8192x128.Idx → EReal :=
  addf (Host.dotGeneral (F := Ideal) (φ₁ := .f32) (φ₂ := .f32) dot_S8192x16_S16x128_S8192x128_1_0_0_1_n_n none OH W3B)
    (broadcastInDim S8192x128 ![0, 1] bcast_S1x128_S8192x128_0_1 B3)

/-- What the kernel finds in the additive term's buffer. -/
theorem V_bias (c : Dev nD) : (V m c main_v2 : S8192x128.Idx → EReal)
    = classBias (m ((c : Thread nD τ).loc main_arg1)) (m ((c : Thread nD τ).loc main_arg7)) (m ((c : Thread nD τ).loc main_arg8)) := by
  show StableHlo.after hostOps0 (fun b => m (c, b)) (Proc.devRef .tc main_v2) = _
  after_results
  rfl

/-- The printed index maps: every window's block index is zero on every axis. -/
theorem idx0_0 : ∀ t : Fin cfg0.N, ∀ a : Fin 2, win0_0.index t a = 0 := (by decide +kernel : ∀ t : Fin grid0.N, _)
theorem idx0_1 : ∀ t : Fin cfg0.N, ∀ a : Fin 2, win0_1.index t a = 0 := (by decide +kernel : ∀ t : Fin grid0.N, _)
theorem idx0_2 : ∀ t : Fin cfg0.N, ∀ a : Fin 2, win0_2.index t a = 0 := (by decide +kernel : ∀ t : Fin grid0.N, _)
theorem idx0_3 : ∀ t : Fin cfg0.N, ∀ a : Fin 2, win0_3.index t a = 0 := (by decide +kernel : ∀ t : Fin grid0.N, _)
theorem idx0_4 : ∀ t : Fin cfg0.N, ∀ a : Fin 2, win0_4.index t a = 0 := (by decide +kernel : ∀ t : Fin grid0.N, _)
theorem idx0_5 : ∀ t : Fin cfg0.N, ∀ a : Fin 2, win0_5.index t a = 0 := (by decide +kernel : ∀ t : Fin grid0.N, _)
theorem idx0_6 : ∀ t : Fin cfg0.N, ∀ a : Fin 2, win0_6.index t a = 0 := (by decide +kernel : ∀ t : Fin grid0.N, _)
theorem idx0_7 : ∀ t : Fin cfg0.N, ∀ a : Fin 2, win0_7.index t a = 0 := (by decide +kernel : ∀ t : Fin grid0.N, _)

/-- Each input block is the whole array as the kernel finds it. -/
theorem iblk_0 (c : Dev nD) (t : Fin cfg0.N) : (iblk m c 0 t : Vec Ideal S8192x512 .f32) = (V m c main_arg0 : S8192x512.Idx → EReal) := by
  have hz' : (fun a => win0_0.index t a * main_arg0.ty.shape.size a) = fun _ => 0 := funext fun a => by rw [idx0_0 t a, Nat.zero_mul]
  exact Memref.read_access_unit_zero (Elt Ideal) main_arg0 hz' (fun a => by rw [congrFun hz' a]; simp) (V m c main_arg0)
theorem iblk_1 (c : Dev nD) (t : Fin cfg0.N) : (iblk m c 1 t : Vec Ideal S8192x128 .f32) = (V m c main_v2 : S8192x128.Idx → EReal) := by
  have hz' : (fun a => win0_1.index t a * main_v2.ty.shape.size a) = fun _ => 0 := funext fun a => by rw [idx0_1 t a, Nat.zero_mul]
  exact Memref.read_access_unit_zero (Elt Ideal) main_v2 hz' (fun a => by rw [congrFun hz' a]; simp) (V m c main_v2)
theorem iblk_2 (c : Dev nD) (t : Fin cfg0.N) : (iblk m c 2 t : Vec Ideal S512x256 .f32) = (V m c main_arg2 : S512x256.Idx → EReal) := by
  have hz' : (fun a => win0_2.index t a * main_arg2.ty.shape.size a) = fun _ => 0 := funext fun a => by rw [idx0_2 t a, Nat.zero_mul]
  exact Memref.read_access_unit_zero (Elt Ideal) main_arg2 hz' (fun a => by rw [congrFun hz' a]; simp) (V m c main_arg2)
theorem iblk_3 (c : Dev nD) (t : Fin cfg0.N) : (iblk m c 3 t : Vec Ideal S2x256 .f32) = (V m c main_arg3 : S2x256.Idx → EReal) := by
  have hz' : (fun a => win0_3.index t a * main_arg3.ty.shape.size a) = fun _ => 0 := funext fun a => by rw [idx0_3 t a, Nat.zero_mul]
  exact Memref.read_access_unit_zero (Elt Ideal) main_arg3 hz' (fun a => by rw [congrFun hz' a]; simp) (V m c main_arg3)
theorem iblk_4 (c : Dev nD) (t : Fin cfg0.N) : (iblk m c 4 t : Vec Ideal S256x64 .f32) = (V m c main_arg4 : S256x64.Idx → EReal) := by
  have hz' : (fun a => win0_4.index t a * main_arg4.ty.shape.size a) = fun _ => 0 := funext fun a => by rw [idx0_4 t a, Nat.zero_mul]
  exact Memref.read_access_unit_zero (Elt Ideal) main_arg4 hz' (fun a => by rw [congrFun hz' a]; simp) (V m c main_arg4)
theorem iblk_5 (c : Dev nD) (t : Fin cfg0.N) : (iblk m c 5 t : Vec Ideal S2x64 .f32) = (V m c main_arg5 : S2x64.Idx → EReal) := by
  have hz' : (fun a => win0_5.index t a * main_arg5.ty.shape.size a) = fun _ => 0 := funext fun a => by rw [idx0_5 t a, Nat.zero_mul]
  exact Memref.read_access_unit_zero (Elt Ideal) main_arg5 hz' (fun a => by rw [congrFun hz' a]; simp) (V m c main_arg5)
theorem iblk_6 (c : Dev nD) (t : Fin cfg0.N) : (iblk m c 6 t : Vec Ideal S64x128 .f32) = (V m c main_arg6 : S64x128.Idx → EReal) := by
  have hz' : (fun a => win0_6.index t a * main_arg6.ty.shape.size a) = fun _ => 0 := funext fun a => by rw [idx0_6 t a, Nat.zero_mul]
  exact Memref.read_access_unit_zero (Elt Ideal) main_arg6 hz' (fun a => by rw [congrFun hz' a]; simp) (V m c main_arg6)

/-- The kernel's stored value at the arrays as it finds them. -/
def stored (c : Dev nD) : S8192x128.Idx → EReal :=
  out0_7 (F := Ideal) (V m c main_arg0) (V m c main_v2) (V m c main_arg2) (V m c main_arg3) (V m c main_arg4) (V m c main_arg5)
    (V m c main_arg6)

/-- WHAT THE ONE POINT WRITES BACK is the whole stored value. -/
theorem flushed7_eq (c : Dev nD) (t : Fin cfg0.N) :
    (dats m 0 c).flushed 7 t = ((cfg0.win 7).blk t).view.read (Elt Ideal) (stored m c) := by
  show (cfg0.win 7).cut (grid0.coords t) ((dats m 0 c).after 7 t) = _
  rw [after0_7, iblk_0 m c t, iblk_1 m c t, iblk_2 m c t, iblk_3 m c t, iblk_4 m c t, iblk_5 m c t, iblk_6 m c t]
  have hz' : (fun a => win0_7.index t a * main_v3.ty.shape.size a) = fun _ => 0 := funext fun a => by rw [idx0_7 t a, Nat.zero_mul]
  exact (Memref.read_access_unit_zero (Elt Ideal) main_v3 hz' (fun a => by rw [congrFun hz' a]; simp) (stored m c)).symm

theorem mem_blk7 (t : Fin cfg0.N) (i : S8192x128.Idx) :
    i ∈ ((cfg0.win 7).blk t).view.set ↔ ∀ a : Fin 2, win0_7.index t a * S8192x128.size a ≤ (i a).val ∧ (i a).val < win0_7.index t a * S8192x128.size a + S8192x128.size a := by
  show i ∈ ((View.whole main_v3).slice (win0_7.rect t)).set ↔ _
  rw [View.set_slice_whole, Rect.mem_set_unit]
  exact Iff.rfl

/-- The one point's block is the whole array. -/
theorem cover7 (i : S8192x128.Idx) : ∃ t : Fin cfg0.N, (cfg0.win 7).flush t = true ∧ i ∈ ((cfg0.win 7).blk t).view.set := by
  have h0 : (i 0).val < 8192 := (i 0).isLt
  have h1 : (i 1).val < 128 := (i 1).isLt
  refine ⟨t0_0, flush0_7 _, (mem_blk7 _ i).mpr fun a => ?_⟩
  match a with
  | ⟨0, _⟩ =>
    show win0_7.index t0_0 (0 : Fin 2) * 8192 ≤ (i 0).val ∧ (i 0).val < win0_7.index t0_0 (0 : Fin 2) * 8192 + 8192
    rw [idx0_7 t0_0 0]; omega
  | ⟨1, _⟩ =>
    show win0_7.index t0_0 (1 : Fin 2) * 128 ≤ (i 1).val ∧ (i 1).val < win0_7.index t0_0 (1 : Fin 2) * 128 + 128
    rw [idx0_7 t0_0 1]; omega

/-- THE KERNEL'S RESULT ARRAY after the region. -/
theorem final7 (c : Dev nD) : (dats m 0 c).arrAt 7 cfg0.N = stored m c :=
  (dats m 0 c).arrAt_eq_of_cover 7 _ (fun t _ => flushed7_eq m c t) cover7

/-- The reference program's value: lanes 0 … 2 of the kernel's stored value at the arguments and the additive term. -/
def value (X : S8192x512.Idx → EReal) (OH : S8192x16.Idx → EReal) (W1 : S512x256.Idx → EReal) (BN1 : S2x256.Idx → EReal)
    (W2 : S256x64.Idx → EReal) (BN2 : S2x64.Idx → EReal) (W3A : S64x128.Idx → EReal) (W3B : S16x128.Idx → EReal)
    (B3 : S1x128.Idx → EReal) : S8192x3.Idx → EReal :=
  extractStridedSlice S8192x3 ![0, 0] (out0_7 (F := Ideal) X (classBias OH W3B B3) W1 BN1 W2 BN2 W3A) slices_S8192x128_S8192x3_0_0

/-- The kernel's stored value is at the arguments as launched and the additive term. -/
theorem stored_eq (c : Dev nD) :
    stored m c = out0_7 (F := Ideal) (m ((c : Thread nD τ).loc main_arg0))
      (classBias (m ((c : Thread nD τ).loc main_arg1)) (m ((c : Thread nD τ).loc main_arg7)) (m ((c : Thread nD τ).loc main_arg8)))
      (m ((c : Thread nD τ).loc main_arg2)) (m ((c : Thread nD τ).loc main_arg3)) (m ((c : Thread nD τ).loc main_arg4))
      (m ((c : Thread nD τ).loc main_arg5)) (m ((c : Thread nD τ).loc main_arg6)) := by
  unfold stored
  rw [V_main_arg0 m c, V_bias m c, V_main_arg2 m c, V_main_arg3 m c, V_main_arg4 m c, V_main_arg5 m c, V_main_arg6 m c]

/-- THE RESULT ARRAY after the host's last line. -/
theorem tail_eq (c : Dev nD) :
    (Pipeline.afterTail₀ cfgs (dats m) 0 (V0 m) [hostOps1] c main_v4 : S8192x3.Idx → EReal)
      = value (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  have e : Pipeline.withArrays spec0 c (V0 m c) (fun w => (dats m 0 c).arrAt w cfg0.N) (Proc.devRef .tc main_v3)
      = out0_7 (F := Ideal) (m ((c : Thread nD τ).loc main_arg0))
      (classBias (m ((c : Thread nD τ).loc main_arg1)) (m ((c : Thread nD τ).loc main_arg7)) (m ((c : Thread nD τ).loc main_arg8)))
      (m ((c : Thread nD τ).loc main_arg2)) (m ((c : Thread nD τ).loc main_arg3)) (m ((c : Thread nD τ).loc main_arg4))
      (m ((c : Thread nD τ).loc main_arg5)) (m ((c : Thread nD τ).loc main_arg6)) :=
    (Pipeline.withArrays_arr spec0 launch0.win.arr_inj c _ _ 7).trans ((final7 m c).trans (stored_eq m c))
  unfold Pipeline.afterTail₀
  show StableHlo.after hostOps1 _ (Proc.devRef .tc main_v4) = _
  after_results
  unfold value
  exact congrArg (fun Y => extractStridedSlice S8192x3 ![0, 0] Y slices_S8192x128_S8192x3_0_0) e

/-- THE RUN, READ: the result array at the reference's value of the arguments, the arguments unchanged. -/
theorem run : θ_run defs (onTc (τ := τ) (main (F := Ideal))) ⟨m, fun _ => 0, ρ⟩ (fun r => ∀ c : Dev nD,
      r.2.mem ((c.tc : Thread nD τ).loc main_v4)
        = value (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_v4 (Pipeline.mem_restRefs_of main_v4 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

end Cert.ReferenceIdeal.Value2

end
-- ==== Proof.RStage.lean ====
/-
  The reference kernel's stored value, read at an index over the extended reals.

  The reference's one kernel loads the input x : [8192, 512], the first weight, gain and offset rows for two
  normalisations, two more weights and an additive term cb : [8192, 128]. With n = 8192:
    * H (r, c) = Σ_k x (r, k) · w1 (k, c) is the first layer, with column mean m = Σ_r H (r, c) / n and second moment
      q = Σ_r H (r, c)² / n;
    * a (r, c) = max ((H (r, c) − m) · s + β) 0 with s = γ · (q − m · m + ε)^(−1/2) is the first activation;
    * P (r, c) = Σ_k a (r, k) · w2 (k, c) is the second layer, normalised and cut off in the same way to a2;
    * the stored value at (r, c) is the logistic function of Σ_k a2 (r, k) · w3a (k, c) + cb (r, c).
-/
import proofs.«123823_g2000409341698180_pallasbulk_363_2_alg».proof.Proof.Gen.ReferenceIdeal.Skeleton
import proofs.«123823_g2000409341698180_pallasbulk_363_2_alg».proof.Proof.LibDotRows
import proofs.«123823_g2000409341698180_pallasbulk_363_2_alg».proof.Proof.LibColMoments
import proofs.«123823_g2000409341698180_pallasbulk_363_2_alg».proof.Proof.LibNormRows
import proofs.«123823_g2000409341698180_pallasbulk_363_2_alg».proof.Proof.Consts

noncomputable section

open scoped BigOperators

namespace Cert.ReferenceIdeal.Stage

open Idealize.ShloMosaic Idealize.ShloMosaic.ValueIdx Cert.ReferenceIdeal Cert.ReferenceIdeal.Gen
open Cert.Lib.NormRows Cert.Lib.MomentNorm

/-- ε and 8192 as the program spells them. -/
abbrev epsB : EReal := Ideal.ofBits .f32 0x3727C5AC#32
abbrev nB : EReal := Ideal.ofBits .f32 0x46000000#32

theorem dims1_plain : dot_S8192x512_S512x256_S8192x256_1_0_0_1_n_n = DotDims.plain 8192 512 256 := rfl
theorem dims2_plain : dot_S8192x256_S256x64_S8192x64_1_0_0_1_n_n = DotDims.plain 8192 256 64 := rfl
theorem dims3_plain : dot_S8192x64_S64x128_S8192x128_1_0_0_1_n_n = DotDims.plain 8192 64 128 := rfl

/-- The first layer. -/
def hid (x : Vec Ideal S8192x512 .f32) (w1 : Vec Ideal S512x256 .f32) : FVec Ideal S8192x256 .f32 :=
  matmul (φ₁ := .f32) (φ₂ := .f32) dot_S8192x512_S512x256_S8192x256_1_0_0_1_n_n none x w1 (constant S8192x256 .f32 0x00000000#32)

theorem hid_apply (x : Vec Ideal S8192x512 .f32) (w1 : Vec Ideal S512x256 .f32) (r : Fin 8192) (c : Fin 256) :
    hid x w1 (ix2 r c) = ∑ k : Fin 512, x (ix2 r k) * w1 (ix2 k c) := by
  unfold hid
  rw [dims1_plain]
  exact Cert.Lib.DotRows.matmul_plain_apply _ _ r c

/-- The first layer's mean row and second-moment row. -/
def mean1 (x : Vec Ideal S8192x512 .f32) (w1 : Vec Ideal S512x256 .f32) : FVec Ideal S1x256 .f32 :=
  meanRow (hid x w1) (Scalar.ofBits .f32 0x46000000#32) reduces_S8192x256_S256 (.inl rfl) rfl shapeCasts_S256_S1x256

theorem mean1_apply (x : Vec Ideal S8192x512 .f32) (w1 : Vec Ideal S512x256 .f32) (u : Fin 1) (c : Fin 256) :
    mean1 x w1 (ix2 u c) = Ideal.div (∑ r : Fin 8192, hid x w1 (ix2 r c)) nB :=
  meanRow_apply _ _ _ _ _ _ u c

def sq1 (x : Vec Ideal S8192x512 .f32) (w1 : Vec Ideal S512x256 .f32) : FVec Ideal S1x256 .f32 :=
  sqRow (hid x w1) (Scalar.ofBits .f32 0x46000000#32) reduces_S8192x256_S256 (.inl rfl) rfl shapeCasts_S256_S1x256

theorem sq1_apply (x : Vec Ideal S8192x512 .f32) (w1 : Vec Ideal S512x256 .f32) (u : Fin 1) (c : Fin 256) :
    sq1 x w1 (ix2 u c) = Ideal.div (∑ r : Fin 8192, hid x w1 (ix2 r c) * hid x w1 (ix2 r c)) nB :=
  sqRow_apply _ _ _ _ _ _ u c

/-- The first activation. -/
def act1 (x : Vec Ideal S8192x512 .f32) (w1 : Vec Ideal S512x256 .f32) (g1 b1 : Vec Ideal S1x256 .f32) : FVec Ideal S8192x256 .f32 :=
  centreScaleCut (hid x w1) (mean1 x w1)
    (scaleRow (Scalar.ofBits .f32 0x3727C5AC#32) (shapeCast S1x256 (shapeCast S256 g1 shapeCasts_S1x256_S256) shapeCasts_S256_S1x256)
      (mean1 x w1) (sq1 x w1))
    (shapeCast S1x256 (shapeCast S256 b1 shapeCasts_S1x256_S256) shapeCasts_S256_S1x256)
    (Scalar.ofBits .f32 0x00000000#32) broadcasts_S1x256_S8192x256

theorem act1_apply (x : Vec Ideal S8192x512 .f32) (w1 : Vec Ideal S512x256 .f32) (g1 b1 : Vec Ideal S1x256 .f32)
    (r : Fin 8192) (c : Fin 256) :
    act1 x w1 g1 b1 (ix2 r c)
      = centreCut epsB (g1 (ix2 (0 : Fin 1) c)) (b1 (ix2 (0 : Fin 1) c))
          (Ideal.div (∑ r : Fin 8192, hid x w1 (ix2 r c)) nB)
          (Ideal.div (∑ r : Fin 8192, hid x w1 (ix2 r c) * hid x w1 (ix2 r c)) nB) (hid x w1 (ix2 r c)) := by
  unfold act1
  rw [centreScaleCut_apply, scaleRow_apply, mean1_apply, sq1_apply, row_vec_row, row_vec_row]
  show max _ (Ideal.ofBits .f32 0x00000000#32) = _
  rw [Cert.Consts.ofBits_zero]
  rfl

/-- The second layer is the product of the first activation with the second weight. -/
theorem pay2_eq (x : Vec Ideal S8192x512 .f32) (w1 : Vec Ideal S512x256 .f32) (g1 b1 : Vec Ideal S1x256 .f32) (w2 : Vec Ideal S256x64 .f32) :
    k0_pay2 (F := Ideal) x w1 g1 b1 w2
      = matmul (φ₁ := .f32) (φ₂ := .f32) dot_S8192x256_S256x64_S8192x64_1_0_0_1_n_n none (act1 x w1 g1 b1) w2 (constant S8192x64 .f32 0x00000000#32) := rfl

theorem pay2_apply (x : Vec Ideal S8192x512 .f32) (w1 : Vec Ideal S512x256 .f32) (g1 b1 : Vec Ideal S1x256 .f32) (w2 : Vec Ideal S256x64 .f32)
    (r : Fin 8192) (c : Fin 64) :
    k0_pay2 (F := Ideal) x w1 g1 b1 w2 (ix2 r c) = ∑ k : Fin 256, act1 x w1 g1 b1 (ix2 r k) * w2 (ix2 k c) := by
  rw [pay2_eq, dims2_plain]
  exact Cert.Lib.DotRows.matmul_plain_apply _ _ r c

/-- The second layer's mean row. -/
theorem pay3_eq (x : Vec Ideal S8192x512 .f32) (w1 : Vec Ideal S512x256 .f32) (g1 b1 : Vec Ideal S1x256 .f32) (w2 : Vec Ideal S256x64 .f32) :
    k0_pay3 (F := Ideal) x w1 g1 b1 w2
      = meanRow (k0_pay2 (F := Ideal) x w1 g1 b1 w2) (Scalar.ofBits .f32 0x46000000#32) reduces_S8192x64_S64 (.inl rfl) rfl shapeCasts_S64_S1x64 := rfl

theorem pay3_apply (x : Vec Ideal S8192x512 .f32) (w1 : Vec Ideal S512x256 .f32) (g1 b1 : Vec Ideal S1x256 .f32) (w2 : Vec Ideal S256x64 .f32)
    (u : Fin 1) (c : Fin 64) :
    k0_pay3 (F := Ideal) x w1 g1 b1 w2 (ix2 u c) = Ideal.div (∑ r : Fin 8192, k0_pay2 (F := Ideal) x w1 g1 b1 w2 (ix2 r c)) nB := by
  rw [pay3_eq]
  exact meanRow_apply _ _ _ _ _ _ u c

/-- The second layer's squares. -/
theorem pay4_apply (x : Vec Ideal S8192x512 .f32) (w1 : Vec Ideal S512x256 .f32) (g1 b1 : Vec Ideal S1x256 .f32) (w2 : Vec Ideal S256x64 .f32)
    (i : S8192x64.Idx) :
    k0_pay4 (F := Ideal) x w1 g1 b1 w2 i = k0_pay2 (F := Ideal) x w1 g1 b1 w2 i * k0_pay2 (F := Ideal) x w1 g1 b1 w2 i := rfl

/-- The second-moment row from the array of squares. -/
def sq2 (PP : FVec Ideal S8192x64 .f32) : FVec Ideal S1x64 .f32 :=
  meanRow PP (Scalar.ofBits .f32 0x46000000#32) reduces_S8192x64_S64 (.inl rfl) rfl shapeCasts_S64_S1x64

theorem sq2_apply (PP : FVec Ideal S8192x64 .f32) (u : Fin 1) (c : Fin 64) :
    sq2 PP (ix2 u c) = Ideal.div (∑ r : Fin 8192, PP (ix2 r c)) nB :=
  meanRow_apply _ _ _ _ _ _ u c

/-- The second activation, from the second layer P, its mean row m and its squares PP. -/
def act2 (P : FVec Ideal S8192x64 .f32) (m : FVec Ideal S1x64 .f32) (PP : FVec Ideal S8192x64 .f32) (g2 b2 : Vec Ideal S1x64 .f32) :
    FVec Ideal S8192x64 .f32 :=
  centreScaleCut P m
    (scaleRow (Scalar.ofBits .f32 0x3727C5AC#32) (shapeCast S1x64 (shapeCast S64 g2 shapeCasts_S1x64_S64) shapeCasts_S64_S1x64) m (sq2 PP))
    (shapeCast S1x64 (shapeCast S64 b2 shapeCasts_S1x64_S64) shapeCasts_S64_S1x64)
    (Scalar.ofBits .f32 0x00000000#32) broadcasts_S1x64_S8192x64

theorem act2_apply (P : FVec Ideal S8192x64 .f32) (m : FVec Ideal S1x64 .f32) (PP : FVec Ideal S8192x64 .f32) (g2 b2 : Vec Ideal S1x64 .f32)
    (r : Fin 8192) (c : Fin 64) :
    act2 P m PP g2 b2 (ix2 r c)
      = centreCut epsB (g2 (ix2 (0 : Fin 1) c)) (b2 (ix2 (0 : Fin 1) c)) (m (ix2 (0 : Fin 1) c))
          (Ideal.div (∑ r : Fin 8192, PP (ix2 r c)) nB) (P (ix2 r c)) := by
  unfold act2
  rw [centreScaleCut_apply, scaleRow_apply, sq2_apply, row_vec_row, row_vec_row]
  show max _ (Ideal.ofBits .f32 0x00000000#32) = _
  rw [Cert.Consts.ofBits_zero]
  rfl

/-- The stored value: the logistic function of the third product plus the additive term. -/
theorem pay1_eq (P : FVec Ideal S8192x64 .f32) (m : FVec Ideal S1x64 .f32) (PP : FVec Ideal S8192x64 .f32) (g2 b2 : Vec Ideal S1x64 .f32)
    (w3a : Vec Ideal S64x128 .f32) (cb : Vec Ideal S8192x128 .f32) :
    k0_pay1 (F := Ideal) P m PP g2 b2 w3a cb
      = logistic (addf
          (matmul (φ₁ := .f32) (φ₂ := .f32) dot_S8192x64_S64x128_S8192x128_1_0_0_1_n_n none (act2 P m PP g2 b2) w3a (constant S8192x128 .f32 0x00000000#32))
          (shapeCast S8192x128 cb shapeCasts_S8192x128_S8192x128)) := rfl

theorem pay1_apply (P : FVec Ideal S8192x64 .f32) (m : FVec Ideal S1x64 .f32) (PP : FVec Ideal S8192x64 .f32) (g2 b2 : Vec Ideal S1x64 .f32)
    (w3a : Vec Ideal S64x128 .f32) (cb : Vec Ideal S8192x128 .f32) (r : Fin 8192) (c : Fin 128) :
    k0_pay1 (F := Ideal) P m PP g2 b2 w3a cb (ix2 r c)
      = Ideal.logistic ((∑ k : Fin 64, act2 P m PP g2 b2 (ix2 r k) * w3a (ix2 k c)) + cb (ix2 r c)) := by
  rw [pay1_eq]
  change Ideal.logistic _ = Ideal.logistic _
  refine congrArg Ideal.logistic ?_
  change ((_ : EReal) + _) = _
  refine congrArg₂ (· + ·) ?_ ?_
  · rw [dims3_plain]; exact Cert.Lib.DotRows.matmul_plain_apply _ _ r c
  · rw [shapeCast_self]

end Cert.ReferenceIdeal.Stage

end
-- ==== Proof.LibColReduce.lean ====
/-
  Sums down the columns of a two-axis array, and a row vector broadcast to every row, read at an index.

  For an array x : [R, C] reduced along its first axis, over the extended reals, the host's sum from zero at column q
  is the plain sum over the rows, Σ_k x (k, q). A vector r : [C] broadcast first to [1, C] and then to [R, C] reads
  r q at every (i, q); a scalar broadcast to any shape reads its one value everywhere.
-/
import Mathlib
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.Lib.ColReduce

open Idealize.ShloMosaic Idealize.ShloMosaic.ValueIdx

variable {R C : Nat}

/-- The reduced index q with row k put back is (k, q). -/
theorem lift_col (h : (⟨2, ![R, C]⟩ : Shape).Reduces [0] (⟨1, ![C]⟩ : Shape)) (q : Fin C)
    (k : Fin ((⟨2, ![R, C]⟩ : Shape).size 0)) : h.lift (ix1 q) k = ix2 (⟨k.val, k.isLt⟩ : Fin R) q := by
  funext c; apply Fin.ext
  fin_cases c <;> rfl

/-- The host's sum along axis 0 from zero, at column q. -/
theorem hostReduceAdd_col (x : FVec Ideal ⟨2, ![R, C]⟩ .f32) (init : (⟨0, ![]⟩ : Shape).Idx → Ideal .f32)
    (hinit : ∀ i, init i = 0)
    (h' : (⟨2, ![R, C]⟩ : Shape).ReducesTo [0] (⟨1, ![C]⟩ : Shape)) (h : (⟨2, ![R, C]⟩ : Shape).Reduces [0] (⟨1, ![C]⟩ : Shape))
    (hu : 0 < (⟨0, ![]⟩ : Shape).numel) (q : Fin C) :
    Host.reduceAdd (F := Ideal) x init h' hu (ix1 q) = ∑ k : Fin R, x (ix2 k q) := by
  show Ideal.hostReduceAdd h' x (init (Shape.Idx.first hu)) (ix1 q) = _
  rw [Ideal.hostReduceAdd_single h' h, hinit, zero_add]
  refine Finset.sum_congr rfl fun k _ => ?_
  exact congrArg x (lift_col h q k)

/-- A scalar broadcast to any shape reads its one value. -/
theorem bcast_scalar_apply {α : Type} {s : Shape} (hb : (⟨0, ![]⟩ : Shape).BroadcastsInDim s (![] : Fin 0 → Fin s.rank))
    (x : (⟨0, ![]⟩ : Shape).Idx → α) (j : s.Idx) : broadcastInDim s ![] hb x j = x ix0 := by
  unfold broadcastInDim
  exact congrArg x (funext fun a => a.elim0)

/-- A vector broadcast to one row reads its entry. -/
theorem bcast_row1_apply {α : Type} (r : (⟨1, ![C]⟩ : Shape).Idx → α)
    (hb : (⟨1, ![C]⟩ : Shape).BroadcastsInDim (⟨2, ![1, C]⟩ : Shape) (![1] : Fin 1 → Fin 2)) (z : Fin 1) (q : Fin C) :
    broadcastInDim (⟨2, ![1, C]⟩ : Shape) ![1] hb r (ix2 z q) = r (ix1 q) := by
  refine broadcastInDim_apply _ hb r _ (ix1 q) fun a => ?_
  fin_cases a
  show q.val = if C = 1 then 0 else q.val
  split_ifs with hC
  · have := q.isLt; omega
  · rfl

/-- One row broadcast to R rows reads the row's entry. -/
theorem bcast_rows_apply {α : Type} (X : (⟨2, ![1, C]⟩ : Shape).Idx → α)
    (hb : (⟨2, ![1, C]⟩ : Shape).BroadcastsInDim (⟨2, ![R, C]⟩ : Shape) (![0, 1] : Fin 2 → Fin 2)) (i : Fin R) (q : Fin C) :
    broadcastInDim (⟨2, ![R, C]⟩ : Shape) ![0, 1] hb X (ix2 i q) = X (ix2 (0 : Fin 1) q) := by
  refine broadcastInDim_apply _ hb X _ (ix2 (0 : Fin 1) q) fun a => ?_
  fin_cases a
  · rfl
  · show q.val = if C = 1 then 0 else q.val
    split_ifs with hC
    · have := q.isLt; omega
    · rfl

/-- A vector as every row of an [R, C] array reads its entry at the column. -/
theorem rowBcast_apply {α : Type} (r : (⟨1, ![C]⟩ : Shape).Idx → α)
    (hb1 : (⟨1, ![C]⟩ : Shape).BroadcastsInDim (⟨2, ![1, C]⟩ : Shape) (![1] : Fin 1 → Fin 2))
    (hb2 : (⟨2, ![1, C]⟩ : Shape).BroadcastsInDim (⟨2, ![R, C]⟩ : Shape) (![0, 1] : Fin 2 → Fin 2)) (i : Fin R) (q : Fin C) :
    broadcastInDim (⟨2, ![R, C]⟩ : Shape) ![0, 1] hb2 (broadcastInDim (⟨2, ![1, C]⟩ : Shape) ![1] hb1 r) (ix2 i q)
      = r (ix1 q) := by
  rw [bcast_rows_apply _ hb2 i q, bcast_row1_apply r hb1 0 q]

end Cert.Lib.ColReduce

end
-- ==== Proof.RIndex.lean ====
/-
  The reference program's value, entry by entry, is the reference's arrangement of the network.

  At (r, j), j < 3, the value is the kernel's stored value at (r, lane j): the logistic function of the third product
  plus the additive term, with each activation the normalisation of its layer by that layer's own column mean and second
  moment; and the additive term at (r, c) is Σ_k onehot (r, k) · w3b (k, c) plus the bias row at c.
-/
import proofs.«123823_g2000409341698180_pallasbulk_363_2_alg».proof.Proof.RValue
import proofs.«123823_g2000409341698180_pallasbulk_363_2_alg».proof.Proof.RStage
import proofs.«123823_g2000409341698180_pallasbulk_363_2_alg».proof.Proof.LibRowLoad
import proofs.«123823_g2000409341698180_pallasbulk_363_2_alg».proof.Proof.LibColReduce
import proofs.«123823_g2000409341698180_pallasbulk_363_2_alg».proof.Proof.Net

noncomputable section

open scoped BigOperators

namespace Cert.ReferenceIdeal.Index

open Idealize.ShloMosaic Idealize.ShloMosaic.ValueIdx
open Cert.ReferenceIdeal Cert.ReferenceIdeal.Gen Cert.ReferenceIdeal.Stage Cert.ReferenceIdeal.Value2
open Cert.Lib.MomentNorm Cert.Lib.RowLoad

/-- Lane j < 3 among the 128 lanes. -/
def lane (j : Fin 3) : Fin 128 := ⟨j.val, by have := j.isLt; omega⟩

theorem dimsH_plain : dot_S8192x16_S16x128_S8192x128_1_0_0_1_n_n = DotDims.plain 8192 16 128 := rfl

section
variable (X : S8192x512.Idx → EReal) (OH : S8192x16.Idx → EReal) (W1 : S512x256.Idx → EReal) (BN1 : S2x256.Idx → EReal)
  (W2 : S256x64.Idx → EReal) (BN2 : S2x64.Idx → EReal) (W3A : S64x128.Idx → EReal) (W3B : S16x128.Idx → EReal)
  (B3 : S1x128.Idx → EReal)

/-- The additive term at (r, c). -/
theorem classBias_apply (r : Fin 8192) (c : Fin 128) :
    classBias OH W3B B3 (ix2 r c) = Cert.Net.lin (fun r k => OH (ix2 r k)) W3B r c + B3 (ix2 (0 : Fin 1) c) := by
  unfold classBias
  change ((_ : EReal) + _) = _
  refine congrArg₂ (· + ·) ?_ ?_
  · rw [dimsH_plain]; exact Cert.Lib.DotRows.dotGeneral_plain_apply _ _ r c
  · exact Cert.Lib.ColReduce.bcast_rows_apply B3 bcast_S1x128_S8192x128_0_1 r c

/-- The first layer is the network's. -/
theorem layer1_eq (r : Fin 8192) (c : Fin 256) : hid X W1 (ix2 r c) = Cert.Net.lin (fun r k => X (ix2 r k)) W1 r c :=
  hid_apply X W1 r c

/-- The first activation is the network's. -/
theorem act1_eq (r : Fin 8192) (c : Fin 256) :
    act1 X W1 (View.ld (Val := Elt Ideal) (e' := .f32) BN1 r0_2) (View.ld (Val := Elt Ideal) (e' := .f32) BN1 r0_3) (ix2 r c)
      = Cert.Net.actR BN1 (Cert.Net.lin (fun r k => X (ix2 r k)) W1) r c := by
  have hg : View.ld (Val := Elt Ideal) (e' := .f32) BN1 r0_2 (ix2 (0 : Fin 1) c) = BN1 (ix2 (0 : Fin 2) c) :=
    ld_row_apply (Val := Elt Ideal) (e := .f32) BN1 0 inb_S2x256_S1x256_0_0 (0 : Fin 1) c (0 : Fin 2) rfl
  have hb : View.ld (Val := Elt Ideal) (e' := .f32) BN1 r0_3 (ix2 (0 : Fin 1) c) = BN1 (ix2 (1 : Fin 2) c) :=
    ld_row_apply (Val := Elt Ideal) (e := .f32) BN1 1 inb_S2x256_S1x256_1_0 (0 : Fin 1) c (1 : Fin 2) rfl
  rw [act1_apply, hg, hb]
  simp only [layer1_eq]
  rfl

/-- The second layer is the network's. -/
theorem layer2_eq (r : Fin 8192) (k : Fin 64) :
    k0_pay2 (F := Ideal) X W1 (View.ld (Val := Elt Ideal) (e' := .f32) BN1 r0_2) (View.ld (Val := Elt Ideal) (e' := .f32) BN1 r0_3) W2 (ix2 r k)
      = Cert.Net.lin (Cert.Net.actR BN1 (Cert.Net.lin (fun r k => X (ix2 r k)) W1)) W2 r k := by
  rw [pay2_apply]
  simp only [act1_eq]
  rfl

/-- THE REFERENCE'S VALUE at (r, j) is the reference's arrangement of the network at row r, lane j. -/
theorem value_apply (r : Fin 8192) (j : Fin 3) :
    value X OH W1 BN1 W2 BN2 W3A W3B B3 (ix2 r j) = Cert.Net.refNet X OH W1 BN1 W2 BN2 W3A W3B B3 r (lane j) := by
  unfold value
  refine (slice2_axis1_apply 0 _ slices_S8192x128_S8192x3_0_0 r j (lane j) (by show j.val = 0 + j.val; omega)).trans ?_
  unfold out0_7
  rw [View.canon_unit_zero hz2]
  simp only [View.ld_unit_zero (S := S8192x512) hz2, View.ld_unit_zero (S := S512x256) hz2, View.ld_unit_zero (S := S256x64) hz2,
    View.ld_unit_zero (S := S64x128) hz2, View.ld_unit_zero (S := S8192x128) hz2]
  rw [pay1_apply, classBias_apply]
  unfold Cert.Net.refNet
  refine congrArg Ideal.logistic (congrArg₂ (· + ·) ?_ rfl)
  show _ = ∑ k : Fin 64, _ * W3A (ix2 k (lane j))
  refine Finset.sum_congr rfl fun k _ => congrArg (fun t => t * W3A (ix2 k (lane j))) ?_
  have hg : View.ld (Val := Elt Ideal) (e' := .f32) BN2 r0_5 (ix2 (0 : Fin 1) k) = BN2 (ix2 (0 : Fin 2) k) :=
    ld_row_apply (Val := Elt Ideal) (e := .f32) BN2 0 inb_S2x64_S1x64_0_0 (0 : Fin 1) k (0 : Fin 2) rfl
  have hb : View.ld (Val := Elt Ideal) (e' := .f32) BN2 r0_6 (ix2 (0 : Fin 1) k) = BN2 (ix2 (1 : Fin 2) k) :=
    ld_row_apply (Val := Elt Ideal) (e := .f32) BN2 1 inb_S2x64_S1x64_1_0 (0 : Fin 1) k (1 : Fin 2) rfl
  rw [act2_apply, pay3_apply, hg, hb]
  simp only [pay4_apply, layer2_eq]
  rfl

end

end Cert.ReferenceIdeal.Index

end
-- ==== Proof.LibFiniteAll.lean ====
/-
  An array every entry of which passes the test |x| < +∞ consists of real numbers.

  On the extended reals the absolute value is max x (−x), the pattern 0x7F800000 of the 32-bit format denotes
  +∞, and the comparison "less than" is the order's. An extended real x with max x (−x) < +∞ is neither +∞ nor
  −∞ (at either infinity the maximum is +∞), so it is a real number. A conjunction over a whole array of such
  tests, computed as a reduction by "and" from the constant 1 down to a single word, equals 1 only if every
  test does; hence every entry of the array is a real number.
-/
import Mathlib
import Idealize.ShloMosaic.PureOps.Ideal
import Idealize.ShloMosaic.PureOps.Ideal.Laws
import Idealize.ShloMosaic.Lib.ReduceAll
import Idealize.ShloMosaic.Lib.ValueIdx
import proofs.«123823_g2000409341698180_pallasbulk_363_2_alg».proof.Proof.LibRealSum

noncomputable section

open Idealize.ShloMosaic
open Cert.LibRealSum

namespace Cert.Lib.FiniteAll

/-- The pattern of the positive infinity denotes +∞. -/
theorem ofBits_inf_f32 : Ideal.ofBits .f32 0x7F800000#32 = ⊤ := by simp [Ideal.ofBits, Ideal.ieee]

/-- An extended real whose absolute value is below +∞ is a real number. -/
theorem isReal_of_abs_lt_top (x : EReal) (h : max x (-x) < ⊤) : IsReal x := by
  induction x using EReal.rec with
  | bot => simp at h
  | coe a => exact ⟨a, rfl⟩
  | top => simp at h

/-- The same, with the test as the comparison word it is computed as. -/
theorem isReal_of_cmp (x : EReal)
    (h : Ideal.cmp .olt (max x (-x)) (Ideal.ofBits .f32 0x7F800000#32) = 1#1) : IsReal x := by
  rw [ofBits_inf_f32] at h
  refine isReal_of_abs_lt_top x ?_
  by_contra hn
  simp [Ideal.cmp, hn] at h

/-- The shape with no axes has one index. -/
instance subsingleton_scalarIdx : Subsingleton (⟨0, ![]⟩ : Shape).Idx := ⟨fun a b => funext fun d => d.elim0⟩

/-- If the conjunction over the whole array of the tests |x i| < +∞ is 1, every entry is a real number. -/
theorem all_real {s : Shape} {axes : List (Fin s.rank)} (x : FVec Ideal s .f32) (init : IVec ⟨0, ![]⟩ 1)
    (hr : s.ReducesTo axes ⟨0, ![]⟩) (hu : 0 < (⟨0, ![]⟩ : Shape).numel)
    (hb : (⟨0, ![]⟩ : Shape).BroadcastsInDim s (![] : Fin 0 → Fin s.rank))
    (e : Host.reduce IntOp.andi
          (cmpf .olt (Host.absf x) (broadcastInDim s ![] hb (constant (F := Ideal) ⟨0, ![]⟩ .f32 0x7F800000#32)))
          init hr hu ValueIdx.ix0 = 1#1)
    (i : s.Idx) : IsReal (x i) := by
  have h := Host.reduce_andi_all _ init hr hu ValueIdx.ix0 e i
  exact isReal_of_cmp (x i) h

end Cert.Lib.FiniteAll

end
-- ==== Proof.Finite.lean ====
/-
  Under the precondition the five arrays the normalisations depend on hold real numbers.

  The precondition's word is the conjunction, argument by argument, of the reduction by "and" over the whole array of
  the tests |x| < +∞. If the word is 1 then every conjunct is 1, so every entry of every argument passes its test, and an
  extended real whose absolute value is below +∞ is a real number. What is used later: the input, the first and second
  weights, and the two gain-and-offset arrays.
-/
import proofs.«123823_g2000409341698180_pallasbulk_363_2_alg».proof.Pre_finite_inputs
import proofs.«123823_g2000409341698180_pallasbulk_363_2_alg».proof.Proof.LibFiniteAll
import Idealize.ShloMosaic.Lib.Affine
import Idealize.ShloMosaic.Lib.ValueIdx

noncomputable section

namespace Cert.Finite

open Idealize.ShloMosaic Cert.LibRealSum Cert.Lib.FiniteAll Cert.Pre_finite_inputs

variable [Cert.Pre_finite_inputs.Facts]

theorem reals_of_pre (a0 : FVec Ideal S8192x512 .f32) (a1 : FVec Ideal S8192x16 .f32) (a2 : FVec Ideal S512x256 .f32)
    (a3 : FVec Ideal S2x256 .f32) (a4 : FVec Ideal S256x64 .f32) (a5 : FVec Ideal S2x64 .f32) (a6 : FVec Ideal S64x128 .f32)
    (a7 : FVec Ideal S16x128 .f32) (a8 : FVec Ideal S1x128 .f32)
    (h : Cert.Pre_finite_inputs.fn (F := Ideal) a0 a1 a2 a3 a4 a5 a6 a7 a8 = fun _ => 1#1) :
    (∀ i, IsReal (a0 i)) ∧ (∀ i, IsReal (a2 i)) ∧ (∀ i, IsReal (a3 i)) ∧ (∀ i, IsReal (a4 i)) ∧ (∀ i, IsReal (a5 i)) := by
  have h0 := congrFun h ValueIdx.ix0
  simp only [Cert.Pre_finite_inputs.fn, fn_part1, fn_part2, andi, IntOp.andi_eq_one] at h0
  obtain ⟨⟨⟨⟨⟨⟨⟨⟨h_0, h_1⟩, h_2⟩, h_3⟩, h_4⟩, h_5⟩, h_6⟩, h_7⟩, h_8⟩ := h0
  exact ⟨all_real a0 _ _ _ _ h_0, all_real a2 _ _ _ _ h_2, all_real a3 _ _ _ _ h_3, all_real a4 _ _ _ _ h_4,
    all_real a5 _ _ _ _ h_5⟩

end Cert.Finite

end
-- ==== Proof.lean ====
/-
  The kernel (two launches: the first layer's product with per-block column sums and sums of squares; then the two
  normalisations, the remaining products and the logistic function on the three lanes kept) against its reference (one
  launch computing the whole network on 128 lanes after the host has formed the one-hot term, the host keeping three
  lanes), over the extended reals.

  Both programs run to completion and leave their arguments unchanged (the three frames). The idealisation of the kernel
  rewrote nothing. For the value: the kernel's result array ends holding, at (r, j), the logistic function of
      (Σ_k a2 (r, k) · w3a (k, j) + Σ_k onehot (r, k) · w3b (k, j)) + bias (j),
  and the reference's the logistic function of
      Σ_k a2' (r, k) · w3a (k, j) + (Σ_k onehot (r, k) · w3b (k, j) + bias (j)),
  where a2, a2' are the second activations. The kernel forms each activation as max (h · s + (β − m · s)) 0 and the
  reference as max ((h − m) · s + β) 0, with s = γ · (q − m · m + ε)^(−1/2); the kernel takes the first layer's mean m and
  second moment q from eight block sums times 2^(−13), the reference from whole column sums divided by 8192. Under the
  precondition every input is a real number; then every layer is a matrix of reals, the block sums add up to the column
  sums, 2^(−13) is 1/8192, the variance q − m · m is nonnegative so s is a real and the product distributes over the
  difference, and addition is associative: the two results are equal entry by entry.
-/
import proofs.«123823_g2000409341698180_pallasbulk_363_2_alg».proof.Defs
import proofs.«123823_g2000409341698180_pallasbulk_363_2_alg».proof.Proof.Gen.Kernel
import proofs.«123823_g2000409341698180_pallasbulk_363_2_alg».proof.Proof.Gen.Kernel.Frame
import proofs.«123823_g2000409341698180_pallasbulk_363_2_alg».proof.Proof.Gen.KernelIdeal
import proofs.«123823_g2000409341698180_pallasbulk_363_2_alg».proof.Proof.Gen.KernelIdeal.Frame
import proofs.«123823_g2000409341698180_pallasbulk_363_2_alg».proof.Proof.Gen.ReferenceIdeal
import proofs.«123823_g2000409341698180_pallasbulk_363_2_alg».proof.Proof.Gen.ReferenceIdeal.Frame
import proofs.«123823_g2000409341698180_pallasbulk_363_2_alg».proof.Proof.Gen.Pre_finite_inputs
import proofs.«123823_g2000409341698180_pallasbulk_363_2_alg».proof.Proof.KIndex
import proofs.«123823_g2000409341698180_pallasbulk_363_2_alg».proof.Proof.RIndex
import proofs.«123823_g2000409341698180_pallasbulk_363_2_alg».proof.Proof.Finite
import proofs.«123823_g2000409341698180_pallasbulk_363_2_alg».proof.Proof.Net
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ => Cert.ReferenceIdeal.Gen.frame m ρ

/-- The idealisation rewrote no operation. -/
theorem preserves : Cert.preserves_Kernel_KernelIdeal := trivial

/-- From memories agreeing on the arguments both runs end, the kernel's result array at the kernel's value of the
    arguments and the reference's at the reference's value of the same arguments; under the precondition the arguments are
    real, and then the two values are one function, entry by entry. -/
theorem algebraic : Cert.algebraic_KernelIdeal_ReferenceIdeal := by
  intro m ρ m' ρ' hpre hagree
  refine ⟨_, Cert.KernelIdeal.Value2.run m ρ, ?_⟩
  refine (θ_run Cert.ReferenceIdeal.defs _ _).mono (fun _ h c => ⟨(h c).1.trans ?_, (h c).2⟩)
    (Cert.ReferenceIdeal.Value2.run m' ρ')
  obtain ⟨a0, a1, a2, a3, a4, a5, a6, a7, a8⟩ := hagree c
  rw [a0, a1, a2, a3, a4, a5, a6, a7, a8]
  obtain ⟨h0, h2, h3, h4, h5⟩ := Cert.Finite.reals_of_pre _ _ _ _ _ _ _ _ _ (hpre c)
  funext i
  obtain ⟨r, j, rfl⟩ : ∃ (r : Fin 8192) (j : Fin 3), i = ValueIdx.ix2 r j := ⟨i 0, i 1, ValueIdx.eq_ix2 i⟩
  rw [Cert.ReferenceIdeal.Index.value_apply, Cert.KernelIdeal.Index.value_apply]
  exact (Cert.Net.kerNet_eq_refNet _ _ _ _ _ _ _ _ _ h0 h2 h3 h4 h5 r _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
